-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S2x1048576 : Shape := ⟨2, ![2, 1048576]⟩
abbrev S1024x64 : Shape := ⟨2, ![1024, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S65536x1024 .f32) (main_arg1 : IVec S2x1048576 32) (main_arg2 : FVec F S1024x64 .f32) (main_arg3 : FVec F S64 .f32) (main_arg4 : FVec F S64x32 .f32) (main_arg5 : FVec F S32 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x64 .f32 := Host.absf main_arg2
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S65536x1024 : Shape := ⟨2, ![65536, 1024]⟩
abbrev S2x1048576 : Shape := ⟨2, ![2, 1048576]⟩
abbrev S1024x64 : Shape := ⟨2, ![1024, 64]⟩
abbrev S64 : Shape := ⟨1, ![64]⟩
abbrev S64x32 : Shape := ⟨2, ![64, 32]⟩
abbrev S32 : Shape := ⟨1, ![32]⟩
abbrev S1x1048576 : Shape := ⟨2, ![1, 1048576]⟩
abbrev S1048576 : Shape := ⟨1, ![1048576]⟩
abbrev S_ : Shape := ⟨0, ![]⟩
abbrev S65536 : Shape := ⟨1, ![65536]⟩
abbrev S1048576x1 : Shape := ⟨2, ![1048576, 1]⟩
abbrev S65536x64 : Shape := ⟨2, ![65536, 64]⟩
abbrev S2048x1024 : Shape := ⟨2, ![2048, 1024]⟩
abbrev S2048x64 : Shape := ⟨2, ![2048, 64]⟩
abbrev S1048576x64 : Shape := ⟨2, ![1048576, 64]⟩
abbrev S65536x1 : Shape := ⟨2, ![65536, 1]⟩
abbrev S1x64 : Shape := ⟨2, ![1, 64]⟩
abbrev S65536x32 : Shape := ⟨2, ![65536, 32]⟩
abbrev S8192x64 : Shape := ⟨2, ![8192, 64]⟩
abbrev S8192x32 : Shape := ⟨2, ![8192, 32]⟩
abbrev S1048576x32 : Shape := ⟨2, ![1048576, 32]⟩
abbrev S1x32 : Shape := ⟨2, ![1, 32]⟩

abbrev nBuf : Space → Nat
  | .hbm => 108
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S2x1048576, .i32⟩
  | .hbm, ⟨2, _⟩ => ⟨S1024x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1048576, .i32⟩
  | .hbm, ⟨7, _⟩ => ⟨S1048576, .i32⟩
  | .hbm, ⟨8, _⟩ => ⟨S1x1048576, .i32⟩
  | .hbm, ⟨9, _⟩ => ⟨S1048576, .i32⟩
  | .hbm, ⟨10, _⟩ => ⟨S_, .f32⟩
  | .hbm, ⟨11, _⟩ => ⟨S1048576, .f32⟩
  | .hbm, ⟨12, _⟩ => ⟨S_, .f32⟩
  | .hbm, ⟨13, _⟩ => ⟨S65536, .f32⟩
  | .hbm, ⟨14, _⟩ => ⟨S1048576x1, .i32⟩
  | .hbm, ⟨15, _⟩ => ⟨S65536, .f32⟩
  | .hbm, ⟨16, _⟩ => ⟨S_, .f32⟩
  | .hbm, ⟨17, _⟩ => ⟨S65536, .f32⟩
  | .hbm, ⟨18, _⟩ => ⟨S65536, .f32⟩
  | .hbm, ⟨19, _⟩ => ⟨S65536, .f32⟩
  | .hbm, ⟨20, _⟩ => ⟨S_, .i32⟩
  | .hbm, ⟨21, _⟩ => ⟨S1048576, .i32⟩
  | .hbm, ⟨22, _⟩ => ⟨S1048576, .i1⟩
  | .hbm, ⟨23, _⟩ => ⟨S_, .i32⟩
  | .hbm, ⟨24, _⟩ => ⟨S1048576, .i32⟩
  | .hbm, ⟨25, _⟩ => ⟨S1048576, .i32⟩
  | .hbm, ⟨26, _⟩ => ⟨S1048576, .i32⟩
  | .hbm, ⟨27, _⟩ => ⟨S1048576x1, .i32⟩
  | .hbm, ⟨28, _⟩ => ⟨S1048576, .f32⟩
  | .hbm, ⟨29, _⟩ => ⟨S_, .i32⟩
  | .hbm, ⟨30, _⟩ => ⟨S1048576, .i32⟩
  | .hbm, ⟨31, _⟩ => ⟨S1048576, .i1⟩
  | .hbm, ⟨32, _⟩ => ⟨S_, .i32⟩
  | .hbm, ⟨33, _⟩ => ⟨S1048576, .i32⟩
  | .hbm, ⟨34, _⟩ => ⟨S1048576, .i32⟩
  | .hbm, ⟨35, _⟩ => ⟨S1048576, .i32⟩
  | .hbm, ⟨36, _⟩ => ⟨S1048576x1, .i32⟩
  | .hbm, ⟨37, _⟩ => ⟨S1048576, .f32⟩
  | .hbm, ⟨38, _⟩ => ⟨S1048576, .f32⟩
  | .hbm, ⟨39, _⟩ => ⟨S_, .f32⟩
  | .hbm, ⟨40, _⟩ => ⟨S65536, .f32⟩
  | .hbm, ⟨41, _⟩ => ⟨S65536, .f32⟩
  | .hbm, ⟨42, _⟩ => ⟨S65536x64, .f32⟩
  | .hbm, ⟨43, _⟩ => ⟨S_, .i32⟩
  | .hbm, ⟨44, _⟩ => ⟨S1048576, .i32⟩
  | .hbm, ⟨45, _⟩ => ⟨S1048576, .i1⟩
  | .hbm, ⟨46, _⟩ => ⟨S_, .i32⟩
  | .hbm, ⟨47, _⟩ => ⟨S1048576, .i32⟩
  | .hbm, ⟨48, _⟩ => ⟨S1048576, .i32⟩
  | .hbm, ⟨49, _⟩ => ⟨S1048576, .i32⟩
  | .hbm, ⟨50, _⟩ => ⟨S1048576x1, .i32⟩
  | .hbm, ⟨51, _⟩ => ⟨S1048576x64, .f32⟩
  | .hbm, ⟨52, _⟩ => ⟨S1048576x1, .f32⟩
  | .hbm, ⟨53, _⟩ => ⟨S1048576x64, .f32⟩
  | .hbm, ⟨54, _⟩ => ⟨S1048576x64, .f32⟩
  | .hbm, ⟨55, _⟩ => ⟨S_, .f32⟩
  | .hbm, ⟨56, _⟩ => ⟨S65536x64, .f32⟩
  | .hbm, ⟨57, _⟩ => ⟨S1048576x1, .i32⟩
  | .hbm, ⟨58, _⟩ => ⟨S65536x64, .f32⟩
  | .hbm, ⟨59, _⟩ => ⟨S65536x1, .f32⟩
  | .hbm, ⟨60, _⟩ => ⟨S65536x64, .f32⟩
  | .hbm, ⟨61, _⟩ => ⟨S65536x64, .f32⟩
  | .hbm, ⟨62, _⟩ => ⟨S65536x64, .f32⟩
  | .hbm, ⟨63, _⟩ => ⟨S1x64, .f32⟩
  | .hbm, ⟨64, _⟩ => ⟨S65536x64, .f32⟩
  | .hbm, ⟨65, _⟩ => ⟨S65536x64, .f32⟩
  | .hbm, ⟨66, _⟩ => ⟨S_, .f32⟩
  | .hbm, ⟨67, _⟩ => ⟨S65536x64, .f32⟩
  | .hbm, ⟨68, _⟩ => ⟨S65536x64, .f32⟩
  | .hbm, ⟨69, _⟩ => ⟨S65536x32, .f32⟩
  | .hbm, ⟨70, _⟩ => ⟨S_, .i32⟩
  | .hbm, ⟨71, _⟩ => ⟨S1048576, .i32⟩
  | .hbm, ⟨72, _⟩ => ⟨S1048576, .i1⟩
  | .hbm, ⟨73, _⟩ => ⟨S_, .i32⟩
  | .hbm, ⟨74, _⟩ => ⟨S1048576, .i32⟩
  | .hbm, ⟨75, _⟩ => ⟨S1048576, .i32⟩
  | .hbm, ⟨76, _⟩ => ⟨S1048576, .i32⟩
  | .hbm, ⟨77, _⟩ => ⟨S1048576x1, .i32⟩
  | .hbm, ⟨78, _⟩ => ⟨S1048576x32, .f32⟩
  | .hbm, ⟨79, _⟩ => ⟨S1048576x1, .f32⟩
  | .hbm, ⟨80, _⟩ => ⟨S1048576x32, .f32⟩
  | .hbm, ⟨81, _⟩ => ⟨S1048576x32, .f32⟩
  | .hbm, ⟨82, _⟩ => ⟨S_, .f32⟩
  | .hbm, ⟨83, _⟩ => ⟨S65536x32, .f32⟩
  | .hbm, ⟨84, _⟩ => ⟨S1048576x1, .i32⟩
  | .hbm, ⟨85, _⟩ => ⟨S65536x32, .f32⟩
  | .hbm, ⟨86, _⟩ => ⟨S65536x1, .f32⟩
  | .hbm, ⟨87, _⟩ => ⟨S65536x32, .f32⟩
  | .hbm, ⟨88, _⟩ => ⟨S65536x32, .f32⟩
  | .hbm, ⟨89, _⟩ => ⟨S65536x32, .f32⟩
  | .hbm, ⟨90, _⟩ => ⟨S1x32, .f32⟩
  | .hbm, ⟨91, _⟩ => ⟨S65536x32, .f32⟩
  | .hbm, ⟨92, _⟩ => ⟨S65536x32, .f32⟩
  | .hbm, ⟨93, _⟩ => ⟨S_, .f32⟩
  | .hbm, ⟨94, _⟩ => ⟨S65536, .f32⟩
  | .hbm, ⟨95, _⟩ => ⟨S_, .f32⟩
  | .hbm, ⟨96, _⟩ => ⟨S65536, .f32⟩
  | .hbm, ⟨97, _⟩ => ⟨S65536, .f32⟩
  | .hbm, ⟨98, _⟩ => ⟨S65536x1, .f32⟩
  | .hbm, ⟨99, _⟩ => ⟨S65536x32, .f32⟩
  | .hbm, ⟨100, _⟩ => ⟨S65536x32, .f32⟩
  | .hbm, ⟨101, _⟩ => ⟨S65536x32, .f32⟩
  | .hbm, ⟨102, _⟩ => ⟨S_, .f32⟩
  | .hbm, ⟨103, _⟩ => ⟨S65536, .f32⟩
  | .hbm, ⟨104, _⟩ => ⟨S65536x1, .f32⟩
  | .hbm, ⟨105, _⟩ => ⟨S65536x1, .f32⟩
  | .hbm, ⟨106, _⟩ => ⟨S65536x32, .f32⟩
  | .hbm, ⟨107, _⟩ => ⟨S65536x32, .f32⟩
  | .local _ .vmem, ⟨0, _⟩ => ⟨S2048x1024, .f32⟩
  | .local _ .vmem, ⟨1, _⟩ => ⟨S2048x1024, .f32⟩
  | .local _ .vmem, ⟨2, _⟩ => ⟨S1024x64, .f32⟩
  | .local _ .vmem, ⟨3, _⟩ => ⟨S2048x64, .f32⟩
  | .local _ .vmem, ⟨4, _⟩ => ⟨S2048x64, .f32⟩
  | .local _ .vmem, ⟨5, _⟩ => ⟨S8192x64, .f32⟩
  | .local _ .vmem, ⟨6, _⟩ => ⟨S8192x64, .f32⟩
  | .local _ .vmem, ⟨7, _⟩ => ⟨S64x32, .f32⟩
  | .local _ .vmem, ⟨8, _⟩ => ⟨S8192x32, .f32⟩
  | .local _ .vmem, ⟨9, _⟩ => ⟨S8192x32, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call0_cst : Ref sig .tc := ⟨.hbm, 66, rfl⟩
abbrev main_call0_v0 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_call1_cst : Ref sig .tc := ⟨.hbm, 93, rfl⟩
abbrev main_call1_v0 : Ref sig .tc := ⟨.hbm, 94, rfl⟩
abbrev main_call1_cst_0 : Ref sig .tc := ⟨.hbm, 95, rfl⟩
abbrev main_call1_v1 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_v5 : Ref sig .tc := ⟨.hbm, 100, rfl⟩
abbrev main_call1_v6 : Ref sig .tc := ⟨.hbm, 101, rfl⟩
abbrev main_call1_cst_1 : Ref sig .tc := ⟨.hbm, 102, rfl⟩
abbrev main_call1_v7 : Ref sig .tc := ⟨.hbm, 103, rfl⟩
abbrev main_call1_v8 : Ref sig .tc := ⟨.hbm, 104, rfl⟩
abbrev main_call1_v9 : Ref sig .tc := ⟨.hbm, 105, rfl⟩
abbrev main_call1_v10 : Ref sig .tc := ⟨.hbm, 106, rfl⟩
abbrev main_v71 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8192x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  bcast_S_S1048576 : S_.BroadcastsInDim S1048576 (![] : Fin 0 → Fin S1048576.rank)
  bcast_S_S65536 : S_.BroadcastsInDim S65536 (![] : Fin 0 → Fin S65536.rank)
  bcast_S1048576_S1048576x1_0 : S1048576.BroadcastsInDim S1048576x1 (![0] : Fin 1 → Fin S1048576x1.rank)
  inb_S2048x1024_S2048x1024_0_0 : ∀ a, (![0, 0] : Fin 2 → Nat) a + S2048x1024.size a ≤ S2048x1024.size a
  h_S2048x1024 : 0 < S2048x1024.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S2048x64_S2048x64_0_0 : ∀ a, (![0, 0] : Fin 2 → Nat) a + S2048x64.size a ≤ S2048x64.size a
  h_S2048x64 : 0 < S2048x64.numel
  bcast_S1048576x1_S1048576x64_0_1 : S1048576x1.BroadcastsInDim S1048576x64 (![0, 1] : Fin 2 → Fin S1048576x64.rank)
  bcast_S_S65536x64 : S_.BroadcastsInDim S65536x64 (![] : Fin 0 → Fin S65536x64.rank)
  bcast_S65536_S65536x1_0 : S65536.BroadcastsInDim S65536x1 (![0] : Fin 1 → Fin S65536x1.rank)
  bcast_S65536x1_S65536x64_0_1 : S65536x1.BroadcastsInDim S65536x64 (![0, 1] : Fin 2 → Fin S65536x64.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S64x32_S64x32_0_0 : ∀ a, (![0, 0] : Fin 2 → Nat) a + S64x32.size a ≤ S64x32.size a
  h_S64x32 : 0 < S64x32.numel
  inb_S8192x32_S8192x32_0_0 : ∀ a, (![0, 0] : Fin 2 → Nat) a + S8192x32.size a ≤ S8192x32.size a
  h_S8192x32 : 0 < S8192x32.numel
  bcast_S1048576x1_S1048576x32_0_1 : S1048576x1.BroadcastsInDim S1048576x32 (![0, 1] : Fin 2 → Fin S1048576x32.rank)
  bcast_S_S65536x32 : S_.BroadcastsInDim S65536x32 (![] : Fin 0 → Fin S65536x32.rank)
  bcast_S65536x1_S65536x32_0_1 : S65536x1.BroadcastsInDim S65536x32 (![0, 1] : Fin 2 → Fin S65536x32.rank)
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  reducesTo_S65536x32_S65536_d1 : S65536x32.ReducesTo [1] S65536
  h_S_ : 0 < S_.numel
  scatter_S65536_S1048576x1_S1048576_n_0_0_1_wf : ScatterDims.WF S65536 S1048576x1 S1048576 [] [0] [0] 1
  gather_S65536_S1048576x1_S1048576_n_0_n_n_0_1_1_wf : GatherDims.WF S65536 S1048576x1 S1048576 [] [0] [] [0] [] 1 ![1]
  dot_S2048x1024_S1024x64_S2048x64_1_0_0_1_n_n_wf : DotDims.WF S2048x1024 S1024x64 S2048x64 [1] [0] [0] [1] [] []
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1
  dot_S8192x64_S64x32_S8192x32_1_0_0_1_n_n_wf : DotDims.WF S8192x64 S64x32 S8192x32 [1] [0] [0] [1] [] []
  gather_S65536x32_S1048576x1_S1048576x32_1_0_n_n_0_1_132_wf : GatherDims.WF S65536x32 S1048576x1 S1048576x32 [1] [0] [] [0] [] 1 ![1, 32]
  scatter_S65536x32_S1048576x1_S1048576x32_1_0_0_1_wf : ScatterDims.WF S65536x32 S1048576x1 S1048576x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S65536x64.size a
  hwx0_2 : ∀ i : grid0.Coords, EltTy.bits .f32 = 32 ∨ (Rect.block (s := S65536x64) S2048x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S65536x64.size a
  hwx1_0 : ∀ i : grid1.Coords, EltTy.bits .f32 = 32 ∨ (Rect.block (s := S65536x64) S8192x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x32.size a ≤ S65536x32.size a
  hwx1_2 : ∀ i : grid1.Coords, EltTy.bits .f32 = 32 ∨ (Rect.block (s := S65536x32) S8192x32.size (cc1_transform_2 i) (hinb1_2 i)).WholeWords (EltTy.packing .f32)

variable [Facts₀]

def scatter_S65536_S1048576x1_S1048576_n_0_0_1 : ScatterDims S65536 S1048576x1 S1048576 where
  updateWindowDims := []
  insertedWindowDims := [0]
  scatterDimsToOperandDims := [0]
  indexVectorDim := 1
  wf := scatter_S65536_S1048576x1_S1048576_n_0_0_1_wf
def gather_S65536_S1048576x1_S1048576_n_0_n_n_0_1_1 : GatherDims S65536 S1048576x1 S1048576 where
  offsetDims := []
  collapsedSliceDims := [0]
  operandBatchingDims := []
  startIndicesBatchingDims := []
  startIndexMap := [0]
  indexVectorDim := 1
  sliceSizes := ![1]
  wf := gather_S65536_S1048576x1_S1048576_n_0_n_n_0_1_1_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def gather_S65536x32_S1048576x1_S1048576x32_1_0_n_n_0_1_132 : GatherDims S65536x32 S1048576x1 S1048576x32 where
  offsetDims := [1]
  collapsedSliceDims := [0]
  operandBatchingDims := []
  startIndicesBatchingDims := []
  startIndexMap := [0]
  indexVectorDim := 1
  sliceSizes := ![1, 32]
  wf := gather_S65536x32_S1048576x1_S1048576x32_1_0_n_n_0_1_132_wf
def scatter_S65536x32_S1048576x1_S1048576x32_1_0_0_1 : ScatterDims S65536x32 S1048576x1 S1048576x32 where
  updateWindowDims := [1]
  insertedWindowDims := [0]
  scatterDimsToOperandDims := [0]
  indexVectorDim := 1
  wf := scatter_S65536x32_S1048576x1_S1048576x32_1_0_0_1_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S8192x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S65536x1024 : Shape := ⟨2, ![65536, 1024]⟩
abbrev S2x1048576 : Shape := ⟨2, ![2, 1048576]⟩
abbrev S1024x64 : Shape := ⟨2, ![1024, 64]⟩
abbrev S64 : Shape := ⟨1, ![64]⟩
abbrev S64x32 : Shape := ⟨2, ![64, 32]⟩
abbrev S32 : Shape := ⟨1, ![32]⟩
abbrev S1x1048576 : Shape := ⟨2, ![1, 1048576]⟩
abbrev S1048576 : Shape := ⟨1, ![1048576]⟩
abbrev S65536x64 : Shape := ⟨2, ![65536, 64]⟩
abbrev S_ : Shape := ⟨0, ![]⟩
abbrev S65536 : Shape := ⟨1, ![65536]⟩
abbrev S1048576x1 : Shape := ⟨2, ![1048576, 1]⟩
abbrev S1048576x64 : Shape := ⟨2, ![1048576, 64]⟩
abbrev S65536x1 : Shape := ⟨2, ![65536, 1]⟩
abbrev S1x64 : Shape := ⟨2, ![1, 64]⟩
abbrev S65536x32 : Shape := ⟨2, ![65536, 32]⟩
abbrev S1048576x32 : Shape := ⟨2, ![1048576, 32]⟩
abbrev S1x32 : Shape := ⟨2, ![1, 32]⟩

abbrev nBuf : Space → Nat
  | .hbm => 140
  | .vmem => 0
  | .smem => 0
  | _ => 0

abbrev hbmTy0_0 (i : Nat) : BufTy := match i % 128 with
  | 0 => ⟨S65536x1024, .f32⟩
  | 1 => ⟨S2x1048576, .i32⟩
  | 2 => ⟨S1024x64, .f32⟩
  | 3 => ⟨S64, .f32⟩
  | 4 => ⟨S64x32, .f32⟩
  | 5 => ⟨S32, .f32⟩
  | 6 => ⟨S1x1048576, .i32⟩
  | 7 => ⟨S1048576, .i32⟩
  | 8 => ⟨S1x1048576, .i32⟩
  | 9 => ⟨S1048576, .i32⟩
  | 10 => ⟨S65536x64, .f32⟩
  | 11 => ⟨S_, .f32⟩
  | 12 => ⟨S1048576, .f32⟩
  | 13 => ⟨S_, .f32⟩
  | 14 => ⟨S65536, .f32⟩
  | 15 => ⟨S1048576x1, .i32⟩
  | 16 => ⟨S65536, .f32⟩
  | 17 => ⟨S_, .f32⟩
  | 18 => ⟨S65536, .f32⟩
  | 19 => ⟨S65536, .f32⟩
  | 20 => ⟨S65536, .f32⟩
  | 21 => ⟨S_, .i32⟩
  | 22 => ⟨S1048576, .i32⟩
  | 23 => ⟨S1048576, .i1⟩
  | 24 => ⟨S_, .i32⟩
  | 25 => ⟨S1048576, .i32⟩
  | 26 => ⟨S1048576, .i32⟩
  | 27 => ⟨S1048576, .i32⟩
  | 28 => ⟨S1048576x1, .i32⟩
  | 29 => ⟨S1048576, .f32⟩
  | 30 => ⟨S_, .i32⟩
  | 31 => ⟨S1048576, .i32⟩
  | 32 => ⟨S1048576, .i1⟩
  | 33 => ⟨S_, .i32⟩
  | 34 => ⟨S1048576, .i32⟩
  | 35 => ⟨S1048576, .i32⟩
  | 36 => ⟨S1048576, .i32⟩
  | 37 => ⟨S1048576x1, .i32⟩
  | 38 => ⟨S1048576, .f32⟩
  | 39 => ⟨S1048576, .f32⟩
  | 40 => ⟨S_, .i32⟩
  | 41 => ⟨S1048576, .i32⟩
  | 42 => ⟨S1048576, .i1⟩
  | 43 => ⟨S_, .i32⟩
  | 44 => ⟨S1048576, .i32⟩
  | 45 => ⟨S1048576, .i32⟩
  | 46 => ⟨S1048576, .i32⟩
  | 47 => ⟨S1048576x1, .i32⟩
  | 48 => ⟨S1048576x64, .f32⟩
  | 49 => ⟨S1048576x1, .f32⟩
  | 50 => ⟨S1048576x64, .f32⟩
  | 51 => ⟨S1048576x64, .f32⟩
  | 52 => ⟨S_, .f32⟩
  | 53 => ⟨S65536x64, .f32⟩
  | 54 => ⟨S1048576x1, .i32⟩
  | 55 => ⟨S65536x64, .f32⟩
  | 56 => ⟨S_, .f32⟩
  | 57 => ⟨S65536, .f32⟩
  | 58 => ⟨S65536, .f32⟩
  | 59 => ⟨S65536x1, .f32⟩
  | 60 => ⟨S65536x64, .f32⟩
  | 61 => ⟨S65536x64, .f32⟩
  | 62 => ⟨S65536x64, .f32⟩
  | 63 => ⟨S1x64, .f32⟩
  | 64 => ⟨S65536x64, .f32⟩
  | 65 => ⟨S65536x64, .f32⟩
  | 66 => ⟨S_, .f32⟩
  | 67 => ⟨S65536x64, .f32⟩
  | 68 => ⟨S65536x64, .f32⟩
  | 69 => ⟨S65536x32, .f32⟩
  | 70 => ⟨S_, .f32⟩
  | 71 => ⟨S1048576, .f32⟩
  | 72 => ⟨S_, .f32⟩
  | 73 => ⟨S65536, .f32⟩
  | 74 => ⟨S1048576x1, .i32⟩
  | 75 => ⟨S65536, .f32⟩
  | 76 => ⟨S_, .f32⟩
  | 77 => ⟨S65536, .f32⟩
  | 78 => ⟨S65536, .f32⟩
  | 79 => ⟨S65536, .f32⟩
  | 80 => ⟨S_, .i32⟩
  | 81 => ⟨S1048576, .i32⟩
  | 82 => ⟨S1048576, .i1⟩
  | 83 => ⟨S_, .i32⟩
  | 84 => ⟨S1048576, .i32⟩
  | 85 => ⟨S1048576, .i32⟩
  | 86 => ⟨S1048576, .i32⟩
  | 87 => ⟨S1048576x1, .i32⟩
  | 88 => ⟨S1048576, .f32⟩
  | 89 => ⟨S_, .i32⟩
  | 90 => ⟨S1048576, .i32⟩
  | 91 => ⟨S1048576, .i1⟩
  | 92 => ⟨S_, .i32⟩
  | 93 => ⟨S1048576, .i32⟩
  | 94 => ⟨S1048576, .i32⟩
  | 95 => ⟨S1048576, .i32⟩
  | 96 => ⟨S1048576x1, .i32⟩
  | 97 => ⟨S1048576, .f32⟩
  | 98 => ⟨S1048576, .f32⟩
  | 99 => ⟨S_, .i32⟩
  | 100 => ⟨S1048576, .i32⟩
  | 101 => ⟨S1048576, .i1⟩
  | 102 => ⟨S_, .i32⟩
  | 103 => ⟨S1048576, .i32⟩
  | 104 => ⟨S1048576, .i32⟩
  | 105 => ⟨S1048576, .i32⟩
  | 106 => ⟨S1048576x1, .i32⟩
  | 107 => ⟨S1048576x32, .f32⟩
  | 108 => ⟨S1048576x1, .f32⟩
  | 109 => ⟨S1048576x32, .f32⟩
  | 110 => ⟨S1048576x32, .f32⟩
  | 111 => ⟨S_, .f32⟩
  | 112 => ⟨S65536x32, .f32⟩
  | 113 => ⟨S1048576x1, .i32⟩
  | 114 => ⟨S65536x32, .f32⟩
  | 115 => ⟨S_, .f32⟩
  | 116 => ⟨S65536, .f32⟩
  | 117 => ⟨S65536, .f32⟩
  | 118 => ⟨S65536x1, .f32⟩
  | 119 => ⟨S65536x32, .f32⟩
  | 120 => ⟨S65536x32, .f32⟩
  | 121 => ⟨S65536x32, .f32⟩
  | 122 => ⟨S1x32, .f32⟩
  | 123 => ⟨S65536x32, .f32⟩
  | 124 => ⟨S65536x32, .f32⟩
  | 125 => ⟨S_, .f32⟩
  | 126 => ⟨S65536, .f32⟩
  | 127 => ⟨S_, .f32⟩
  | _ => ⟨S65536x1024, .f32⟩

abbrev hbmTy0_1 (i : Nat) : BufTy := match i % 128 with
  | 0 => ⟨S65536, .f32⟩
  | 1 => ⟨S65536, .f32⟩
  | 2 => ⟨S65536x1, .f32⟩
  | 3 => ⟨S65536x32, .f32⟩
  | 4 => ⟨S65536x32, .f32⟩
  | 5 => ⟨S65536x32, .f32⟩
  | 6 => ⟨S_, .f32⟩
  | 7 => ⟨S65536, .f32⟩
  | 8 => ⟨S65536x1, .f32⟩
  | 9 => ⟨S65536x1, .f32⟩
  | 10 => ⟨S65536x32, .f32⟩
  | 11 => ⟨S65536x32, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call0_cst : Ref sig .tc := ⟨.hbm, 66, rfl⟩
abbrev main_call0_v0 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_c_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_14 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_16 : Ref sig .tc := ⟨.hbm, 99, rfl⟩
abbrev main_v73 : Ref sig .tc := ⟨.hbm, 100, rfl⟩
abbrev main_v74 : Ref sig .tc := ⟨.hbm, 101, rfl⟩
abbrev main_c_17 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_18 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_19 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_call1_cst : Ref sig .tc := ⟨.hbm, 125, rfl⟩
abbrev main_call1_v0 : Ref sig .tc := ⟨.hbm, 126, rfl⟩
abbrev main_call1_cst_0 : Ref sig .tc := ⟨.hbm, 127, rfl⟩
abbrev main_call1_v1 : Ref sig .tc := ⟨.hbm, 128, rfl⟩
abbrev main_call1_v2 : Ref sig .tc := ⟨.hbm, 129, rfl⟩
abbrev main_call1_v3 : Ref sig .tc := ⟨.hbm, 130, rfl⟩
abbrev main_call1_v4 : Ref sig .tc := ⟨.hbm, 131, rfl⟩
abbrev main_call1_v5 : Ref sig .tc := ⟨.hbm, 132, rfl⟩
abbrev main_call1_v6 : Ref sig .tc := ⟨.hbm, 133, rfl⟩
abbrev main_call1_cst_1 : Ref sig .tc := ⟨.hbm, 134, rfl⟩
abbrev main_call1_v7 : Ref sig .tc := ⟨.hbm, 135, rfl⟩
abbrev main_call1_v8 : Ref sig .tc := ⟨.hbm, 136, rfl⟩
abbrev main_call1_v9 : Ref sig .tc := ⟨.hbm, 137, rfl⟩
abbrev main_call1_v10 : Ref sig .tc := ⟨.hbm, 138, rfl⟩
abbrev main_v95 : Ref sig .tc := ⟨.hbm, 139, rfl⟩

abbrev nD : Nat := 1
abbrev τ : Topo := Topo.v7x

variable {F : FTy → Type} [FloatOps F]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  bcast_S_S1048576 : S_.BroadcastsInDim S1048576 (![] : Fin 0 → Fin S1048576.rank)
  bcast_S_S65536 : S_.BroadcastsInDim S65536 (![] : Fin 0 → Fin S65536.rank)
  bcast_S1048576_S1048576x1_0 : S1048576.BroadcastsInDim S1048576x1 (![0] : Fin 1 → Fin S1048576x1.rank)
  bcast_S1048576x1_S1048576x64_0_1 : S1048576x1.BroadcastsInDim S1048576x64 (![0, 1] : Fin 2 → Fin S1048576x64.rank)
  bcast_S_S65536x64 : S_.BroadcastsInDim S65536x64 (![] : Fin 0 → Fin S65536x64.rank)
  bcast_S65536_S65536x1_0 : S65536.BroadcastsInDim S65536x1 (![0] : Fin 1 → Fin S65536x1.rank)
  bcast_S65536x1_S65536x64_0_1 : S65536x1.BroadcastsInDim S65536x64 (![0, 1] : Fin 2 → Fin S65536x64.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S1048576x1_S1048576x32_0_1 : S1048576x1.BroadcastsInDim S1048576x32 (![0, 1] : Fin 2 → Fin S1048576x32.rank)
  bcast_S_S65536x32 : S_.BroadcastsInDim S65536x32 (![] : Fin 0 → Fin S65536x32.rank)
  bcast_S65536x1_S65536x32_0_1 : S65536x1.BroadcastsInDim S65536x32 (![0, 1] : Fin 2 → Fin S65536x32.rank)
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  reducesTo_S65536x32_S65536_d1 : S65536x32.ReducesTo [1] S65536
  h_S_ : 0 < S_.numel
  dot_S65536x1024_S1024x64_S65536x64_1_0_0_1_n_n_wf : DotDims.WF S65536x1024 S1024x64 S65536x64 [1] [0] [0] [1] [] []
  scatter_S65536_S1048576x1_S1048576_n_0_0_1_wf : ScatterDims.WF S65536 S1048576x1 S1048576 [] [0] [0] 1
  gather_S65536_S1048576x1_S1048576_n_0_n_n_0_1_1_wf : GatherDims.WF S65536 S1048576x1 S1048576 [] [0] [] [0] [] 1 ![1]
  gather_S65536x64_S1048576x1_S1048576x64_1_0_n_n_0_1_164_wf : GatherDims.WF S65536x64 S1048576x1 S1048576x64 [1] [0] [] [0] [] 1 ![1, 64]
  scatter_S65536x64_S1048576x1_S1048576x64_1_0_0_1_wf : ScatterDims.WF S65536x64 S1048576x1 S1048576x64 [1] [0] [0] 1
  dot_S65536x64_S64x32_S65536x32_1_0_0_1_n_n_wf : DotDims.WF S65536x64 S64x32 S65536x32 [1] [0] [0] [1] [] []
  gather_S65536x32_S1048576x1_S1048576x32_1_0_n_n_0_1_132_wf : GatherDims.WF S65536x32 S1048576x1 S1048576x32 [1] [0] [] [0] [] 1 ![1, 32]
  scatter_S65536x32_S1048576x1_S1048576x32_1_0_0_1_wf : ScatterDims.WF S65536x32 S1048576x1 S1048576x32 [1] [0] [0] 1

variable [Facts₀]

def dot_S65536x1024_S1024x64_S65536x64_1_0_0_1_n_n : DotDims S65536x1024 S1024x64 S65536x64 where
  lhsContracting := [1]
  rhsContracting := [0]
  lhsNonContracting := [0]
  rhsNonContracting := [1]
  lhsBatch := []
  rhsBatch := []
  wf := dot_S65536x1024_S1024x64_S65536x64_1_0_0_1_n_n_wf
def scatter_S65536_S1048576x1_S1048576_n_0_0_1 : ScatterDims S65536 S1048576x1 S1048576 where
  updateWindowDims := []
  insertedWindowDims := [0]
  scatterDimsToOperandDims := [0]
  indexVectorDim := 1
  wf := scatter_S65536_S1048576x1_S1048576_n_0_0_1_wf
def gather_S65536_S1048576x1_S1048576_n_0_n_n_0_1_1 : GatherDims S65536 S1048576x1 S1048576 where
  offsetDims := []
  collapsedSliceDims := [0]
  operandBatchingDims := []
  startIndicesBatchingDims := []
  startIndexMap := [0]
  indexVectorDim := 1
  sliceSizes := ![1]
  wf := gather_S65536_S1048576x1_S1048576_n_0_n_n_0_1_1_wf
def gather_S65536x64_S1048576x1_S1048576x64_1_0_n_n_0_1_164 : GatherDims S65536x64 S1048576x1 S1048576x64 where
  offsetDims := [1]
  collapsedSliceDims := [0]
  operandBatchingDims := []
  startIndicesBatchingDims := []
  startIndexMap := [0]
  indexVectorDim := 1
  sliceSizes := ![1, 64]
  wf := gather_S65536x64_S1048576x1_S1048576x64_1_0_n_n_0_1_164_wf
def scatter_S65536x64_S1048576x1_S1048576x64_1_0_0_1 : ScatterDims S65536x64 S1048576x1 S1048576x64 where
  updateWindowDims := [1]
  insertedWindowDims := [0]
  scatterDimsToOperandDims := [0]
  indexVectorDim := 1
  wf := scatter_S65536x64_S1048576x1_S1048576x64_1_0_0_1_wf
def dot_S65536x64_S64x32_S65536x32_1_0_0_1_n_n : DotDims S65536x64 S64x32 S65536x32 where
  lhsContracting := [1]
  rhsContracting := [0]
  lhsNonContracting := [0]
  rhsNonContracting := [1]
  lhsBatch := []
  rhsBatch := []
  wf := dot_S65536x64_S64x32_S65536x32_1_0_0_1_n_n_wf
def gather_S65536x32_S1048576x1_S1048576x32_1_0_n_n_0_1_132 : GatherDims S65536x32 S1048576x1 S1048576x32 where
  offsetDims := [1]
  collapsedSliceDims := [0]
  operandBatchingDims := []
  startIndicesBatchingDims := []
  startIndexMap := [0]
  indexVectorDim := 1
  sliceSizes := ![1, 32]
  wf := gather_S65536x32_S1048576x1_S1048576x32_1_0_n_n_0_1_132_wf
def scatter_S65536x32_S1048576x1_S1048576x32_1_0_0_1 : ScatterDims S65536x32 S1048576x1 S1048576x32 where
  updateWindowDims := [1]
  insertedWindowDims := [0]
  scatterDimsToOperandDims := [0]
  indexVectorDim := 1
  wf := scatter_S65536x32_S1048576x1_S1048576x32_1_0_0_1_wf

class Facts : Prop extends Facts₀ where

variable [Facts]
-- ==== Proof.KernelRun.lean ====
/-
  The kernel program's run, read at its result.

  @main is seven segments: host operations, the first product's region, host operations (two stretches), the second
  product's region, host operations (two stretches). Every weakly fair execution terminates without a fault, and the
  final memory holds, in every buffer that outlives the regions, the contents the last segment boundary names: the
  fold of the host stretches and the regions' write-backs from the launch memory. The arguments are among them and end
  as launched; the result buffer is among them and ends at that fold's value.
-/
import proofs.«178939_j33758442947404_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last segment
    boundary's contents and every argument array as launched. -/
theorem run_result : θ_run defs (onTc (τ := τ) (main (F := F))) ⟨m, fun _ => 0, ρ⟩ (fun r => ∀ c : Dev nD,
      r.2.mem ((c.tc : Thread nD τ).loc main_v71) = W7 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v71 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Run

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibWholeProduct.lean ====
/-
  The matrix product of an M×K array with a K×N array on the extended reals, as ONE function of the two arrays:
  entry (p, c) is Σ_{q < K} x[p, q] · w[q, c] (`mm`). The vector unit's product into a zero accumulator (whatever
  float formats its operands were cast to) and the host's dot_general (contract the left operand's axis 1 with the
  right operand's axis 0, no batch axes) are both this function, as whole arrays (`matmul_zero_eq`,
  `dotGeneral_eq`). An entry depends on one row of the left operand and one column of the right operand
  (`mm_eq_of_row_col`): two products of arrays of any heights and widths agree at a pair of entries whose row and
  column agree term by term — what a product computed a block of rows at a time needs. Any extents; no program.
-/
import proofs.«178939_j33758442947404_1_alg».proof.Proof.LibPlainDot

noncomputable section

open scoped BigOperators

namespace Cert.Product

open Idealize.ShloMosaic Idealize.ShloMosaic.ValueIdx Cert.PlainDot

/-- The product, entry by entry. -/
def mm {M K N : Nat} (x : (⟨2, ![M, K]⟩ : Shape).Idx → EReal) (w : (⟨2, ![K, N]⟩ : Shape).Idx → EReal) :
    (⟨2, ![M, N]⟩ : Shape).Idx → EReal :=
  fun i => ∑ q : Fin K, x (ix2 (i 0) q) * w (ix2 q (i 1))

theorem mm_apply {M K N : Nat} (x : (⟨2, ![M, K]⟩ : Shape).Idx → EReal) (w : (⟨2, ![K, N]⟩ : Shape).Idx → EReal)
    (p : Fin M) (c : Fin N) : mm x w (ix2 p c) = ∑ q : Fin K, x (ix2 p q) * w (ix2 q c) := rfl

/-- An entry of a product depends on one row of the left operand and one column of the right operand: two products,
    of arrays of any heights and widths, agree at a pair of entries whose row and column agree term by term. -/
theorem mm_eq_of_row_col {M K N M' N' : Nat}
    (x : (⟨2, ![M, K]⟩ : Shape).Idx → EReal) (w : (⟨2, ![K, N]⟩ : Shape).Idx → EReal)
    (x' : (⟨2, ![M', K]⟩ : Shape).Idx → EReal) (w' : (⟨2, ![K, N']⟩ : Shape).Idx → EReal)
    (i : (⟨2, ![M, N]⟩ : Shape).Idx) (i' : (⟨2, ![M', N']⟩ : Shape).Idx)
    (hx : ∀ q : Fin K, x (ix2 (i 0) q) = x' (ix2 (i' 0) q)) (hw : ∀ q : Fin K, w (ix2 q (i 1)) = w' (ix2 q (i' 1))) :
    mm x w i = mm x' w' i' :=
  Finset.sum_congr rfl fun q _ => by rw [hx q, hw q]

variable {M K N : Nat} {d : DotDims ⟨2, ![M, K]⟩ ⟨2, ![K, N]⟩ ⟨2, ![M, N]⟩}

/-- The host's dot_general of a plain product is `mm`. -/
theorem dotGeneral_eq (h : IsPlain d) (prec : Option ContractPrecision)
    (l : FVec Ideal ⟨2, ![M, K]⟩ .f32) (r : FVec Ideal ⟨2, ![K, N]⟩ .f32) :
    Host.dotGeneral d prec l r = mm l r := by
  funext i
  rw [eq_ix2 i]
  exact dotGeneral_apply h prec l r (i 0) (i 1)

/-- The vector unit's product into a zero accumulator is `mm`, whatever float formats the operands were cast to. -/
theorem matmul_zero_eq (h : IsPlain d) (prec : Option ContractPrecision) {φ₁ φ₂ : FTy}
    (l : FVec Ideal ⟨2, ![M, K]⟩ φ₁) (r : FVec Ideal ⟨2, ![K, N]⟩ φ₂) :
    matmul d prec l r (constant ⟨2, ![M, N]⟩ .f32 0x00000000#32) = mm (K := K) (fun i => l i) (fun i => r i) := by
  funext i
  rw [eq_ix2 i]
  exact matmul_zero_apply h prec l r (i 0) (i 1)

end Cert.Product

end
-- ==== Proof.Stages.lean ====
/-
  A two-layer graph convolution network, as functions of whole arrays on the extended reals.

  The edge list e is a 2 × E integer array: row 0 the source node of each edge, row 1 its target. With a self loop on
  every node, the degree of node n is 1 + the number of edges into n; an edge s → d weighs
  rsqrt(deg s) · rsqrt(deg d) and the self loop of n weighs 1 / deg n. One layer takes the node features already
  multiplied by the layer's weight matrix, xw, and returns, node by node,
      Σ_{edges s → n} xw[s] · weight(s → n)  +  xw[n] / deg n  +  b.
  A negative node number counts from the end when it indexes (the gathers), and is used as it stands by the
  scatter-adds. The network is log_softmax over the rows of layer₂(relu(layer₁(x · W1)) · W2).

  Every function below is written with the host's operations, in the spelling both programs use.
-/
import proofs.«178939_j33758442947404_1_alg».proof.ReferenceIdeal
import proofs.«178939_j33758442947404_1_alg».proof.Proof.Gen.ReferenceIdeal
import Idealize.ShloMosaic.PureOps.Ideal
import proofs.«178939_j33758442947404_1_alg».proof.Proof.LibWholeProduct

noncomputable section

namespace Cert.Gcn

open Cert.ReferenceIdeal Cert.ReferenceIdeal.Facts₀ Cert.ReferenceIdeal.Facts Idealize.ShloMosaic

abbrev Edges := (⟨S2x1048576, .i32⟩ : BufTy).Contents (Elt Ideal)
abbrev EdgeIx := (⟨S1048576, .i32⟩ : BufTy).Contents (Elt Ideal)
abbrev EdgeW := (⟨S1048576, .f32⟩ : BufTy).Contents (Elt Ideal)
abbrev NodeW := (⟨S65536, .f32⟩ : BufTy).Contents (Elt Ideal)
abbrev Feat64 := (⟨S65536x64, .f32⟩ : BufTy).Contents (Elt Ideal)
abbrev Feat32 := (⟨S65536x32, .f32⟩ : BufTy).Contents (Elt Ideal)

/-- The source node of every edge: row 0 of the edge list. -/
def src (e : Edges) : EdgeIx :=
  shapeCast _ (extractStridedSlice S1x1048576 ![0, 0] e slices_S2x1048576_S1x1048576_0_0) shapeCasts_S1x1048576_S1048576

/-- The target node of every edge: row 1 of the edge list. -/
def dst (e : Edges) : EdgeIx :=
  shapeCast _ (extractStridedSlice S1x1048576 ![1, 0] e slices_S2x1048576_S1x1048576_1_0) shapeCasts_S1x1048576_S1048576

/-- Node numbers as a column of start indices, as they stand. -/
def col (i : EdgeIx) : (⟨S1048576x1, .i32⟩ : BufTy).Contents (Elt Ideal) :=
  broadcastInDim S1048576x1 ![0] bcast_S1048576_S1048576x1_0 i

/-- Node numbers as a column of start indices, a negative one counted from the end (i + 65536 where i < 0). -/
def wrapCol (i : EdgeIx) : (⟨S1048576x1, .i32⟩ : BufTy).Contents (Elt Ideal) :=
  broadcastInDim S1048576x1 ![0] bcast_S1048576_S1048576x1_0
    (select (cmpi .slt i (broadcastInDim S1048576 ![] bcast_S_S1048576 (constantI S_ 32 0#32)))
      (addi i (broadcastInDim S1048576 ![] bcast_S_S1048576 (constantI S_ 32 65536#32))) i)

/-- The degree of every node with its self loop: 1 + the number of edges into it. -/
def deg (d : EdgeIx) : NodeW :=
  addf (Host.scatterAdd scatter_S65536_S1048576x1_S1048576_n_0_0_1
      (broadcastInDim S65536 ![] bcast_S_S65536 (constant (F := Ideal) S_ .f32 0x00000000#32)) (col d)
      (broadcastInDim S1048576 ![] bcast_S_S1048576 (constant (F := Ideal) S_ .f32 0x3F800000#32)))
    (broadcastInDim S65536 ![] bcast_S_S65536 (constant (F := Ideal) S_ .f32 0x3F800000#32))

/-- The weight of every edge: rsqrt(deg source) · rsqrt(deg target). -/
def edgeWeight (s d : EdgeIx) : EdgeW :=
  mulf (F := Ideal) (φ := .f32) (Host.gather gather_S65536_S1048576x1_S1048576_n_0_n_n_0_1_1 (Host.rsqrt (deg d)) (wrapCol s))
    (Host.gather gather_S65536_S1048576x1_S1048576_n_0_n_n_0_1_1 (Host.rsqrt (deg d)) (wrapCol d))

/-- The weight of every self loop: 1 / deg. -/
def selfWeight (d : EdgeIx) : NodeW :=
  Host.divf (broadcastInDim S65536 ![] bcast_S_S65536 (constant (F := Ideal) S_ .f32 0x3F800000#32)) (deg d)

/-- One layer on 64 features per node: the weighted sum over the edges into a node, the node's own row over its
    degree, the bias. -/
def layer64 (xw : Feat64) (s d : EdgeIx) (w : EdgeW) (v : NodeW) (b : (⟨S64, .f32⟩ : BufTy).Contents (Elt Ideal)) : Feat64 :=
  addf (addf (Host.scatterAdd scatter_S65536x64_S1048576x1_S1048576x64_1_0_0_1
        (broadcastInDim S65536x64 ![] bcast_S_S65536x64 (constant (F := Ideal) S_ .f32 0x00000000#32)) (col d)
        (mulf (Host.gather gather_S65536x64_S1048576x1_S1048576x64_1_0_n_n_0_1_164 xw (wrapCol s))
          (broadcastInDim S1048576x64 ![0, 1] bcast_S1048576x1_S1048576x64_0_1 (broadcastInDim S1048576x1 ![0] bcast_S1048576_S1048576x1_0 w))))
      (mulf xw (broadcastInDim S65536x64 ![0, 1] bcast_S65536x1_S65536x64_0_1 (broadcastInDim S65536x1 ![0] bcast_S65536_S65536x1_0 v))))
    (broadcastInDim S65536x64 ![0, 1] bcast_S1x64_S65536x64_0_1 (broadcastInDim S1x64 ![1] bcast_S64_S1x64_1 b))

/-- max(x, 0), entry by entry. -/
def relu64 (x : Feat64) : Feat64 :=
  maximumf x (broadcastInDim S65536x64 ![] bcast_S_S65536x64 (constant (F := Ideal) S_ .f32 0x00000000#32))

/-- The same layer on 32 features per node. -/
def layer32 (xw : Feat32) (s d : EdgeIx) (w : EdgeW) (v : NodeW) (b : (⟨S32, .f32⟩ : BufTy).Contents (Elt Ideal)) : Feat32 :=
  addf (addf (Host.scatterAdd scatter_S65536x32_S1048576x1_S1048576x32_1_0_0_1
        (broadcastInDim S65536x32 ![] bcast_S_S65536x32 (constant (F := Ideal) S_ .f32 0x00000000#32)) (col d)
        (mulf (Host.gather gather_S65536x32_S1048576x1_S1048576x32_1_0_n_n_0_1_132 xw (wrapCol s))
          (broadcastInDim S1048576x32 ![0, 1] bcast_S1048576x1_S1048576x32_0_1 (broadcastInDim S1048576x1 ![0] bcast_S1048576_S1048576x1_0 w))))
      (mulf xw (broadcastInDim S65536x32 ![0, 1] bcast_S65536x1_S65536x32_0_1 (broadcastInDim S65536x1 ![0] bcast_S65536_S65536x1_0 v))))
    (broadcastInDim S65536x32 ![0, 1] bcast_S1x32_S65536x32_0_1 (broadcastInDim S1x32 ![1] bcast_S32_S1x32_1 b))

/-- A row minus its maximum (the maximum taken from -inf). -/
def shifted (x : Feat32) : Feat32 :=
  subf x (broadcastInDim S65536x32 ![0, 1] bcast_S65536x1_S65536x32_0_1 (broadcastInDim S65536x1 ![0] bcast_S65536_S65536x1_0
    (maximumf (broadcastInDim S65536 ![] bcast_S_S65536 (constant (F := Ideal) S_ .f32 0xFF800000#32))
      (Host.reduce FloatOps.maximumf x (constant (F := Ideal) S_ .f32 0xFF800000#32) reducesTo_S65536x32_S65536_d1 h_S_))))

/-- log_softmax along the rows: the shifted row minus the log of the sum of its exponentials. -/
def logSoftmax (x : Feat32) : Feat32 :=
  subf (shifted x) (broadcastInDim S65536x32 ![0, 1] bcast_S65536x1_S65536x32_0_1 (Host.log (broadcastInDim S65536x1 ![0] bcast_S65536_S65536x1_0
    (Host.reduceAdd (Host.exp (shifted x)) (constant (F := Ideal) S_ .f32 0x00000000#32) reducesTo_S65536x32_S65536_d1 h_S_))))

/-- The first layer's output after relu, from the product x · W1. -/
def hidden (xw : Feat64) (e : Edges) (b1 : (⟨S64, .f32⟩ : BufTy).Contents (Elt Ideal)) : Feat64 :=
  relu64 (layer64 xw (src e) (dst e) (edgeWeight (src e) (dst e)) (selfWeight (dst e)) b1)

/-- The network's output, from the product hidden · W2. -/
def output (hw : Feat32) (e : Edges) (b2 : (⟨S32, .f32⟩ : BufTy).Contents (Elt Ideal)) : Feat32 :=
  logSoftmax (layer32 hw (src e) (dst e) (edgeWeight (src e) (dst e)) (selfWeight (dst e)) b2)

/-- The whole network: log_softmax(layer₂(relu(layer₁(x · W1)) · W2)), the two products as whole-array functions. -/
def network (x : (⟨S65536x1024, .f32⟩ : BufTy).Contents (Elt Ideal)) (e : Edges)
    (W1 : (⟨S1024x64, .f32⟩ : BufTy).Contents (Elt Ideal)) (b1 : (⟨S64, .f32⟩ : BufTy).Contents (Elt Ideal))
    (W2 : (⟨S64x32, .f32⟩ : BufTy).Contents (Elt Ideal)) (b2 : (⟨S32, .f32⟩ : BufTy).Contents (Elt Ideal)) : Feat32 :=
  output (Cert.Product.mm (hidden (Cert.Product.mm x W1) e b1) W2) e b2

end Cert.Gcn

end
-- ==== Proof.LibHostWalk.lean ====
/-
  Reading a buffer through a straight line of host operations: each operation's result at its own result buffer is
  its function of its operands' contents, and any other buffer keeps what it held. One pass rewrites a read at the end
  of the line into the composed term of the contents the line started from. A two-piece concatenation is restated
  with its two pieces as plain arguments, so that the pass also rewrites the reads inside the pieces.
-/
import Idealize.ShloMosaic.Lib.StableHlo.Run

set_option maxRecDepth 16384

noncomputable section

namespace Cert.HostWalk

open Idealize.ShloMosaic Idealize.ShloMosaic.StableHlo

/-- The concatenation of two pieces along an axis, the pieces as arguments. -/
def cat2 {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concatenate_pair {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ x₁ x₂ h := rfl

/-- Reads a buffer through the fold of a line of host operations (and through whatever further rewriting rules are
    given for the boundaries between lines). -/
macro "walk_back" "[" ls:Lean.Parser.Tactic.simpLemma,* "]" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne',
      TRef.nullary, TRef.unary, TRef.binary, TRef.ternary, TRef.quaternary, TRef.reshape, TRef.toBuf, TRef.ofBuf, TRef.of, cast_eq,
      concatenate_pair, $ls,*]))

end Cert.HostWalk

end
-- ==== Proof.KernelStretches.lean ====
/-
  The kernel program's host stretches, each read as a stage of the network.

  Between the launch, the two products' regions and the return, @main runs five stretches of host operations. From any
  buffer contents V: the first stretch leaves the edge list's two rows, the edge weights and the self-loop weights
  (functions of the edge list alone); the second and third leave relu of the first layer of whatever the first
  product's buffer holds; the fourth and fifth leave log_softmax of the second layer of whatever the second product's
  buffer holds. A buffer a stretch does not write keeps its contents.
-/
import proofs.«178939_j33758442947404_1_alg».proof.Proof.Gen.KernelIdeal.Launch
import proofs.«178939_j33758442947404_1_alg».proof.Proof.Stages
import proofs.«178939_j33758442947404_1_alg».proof.Proof.LibHostWalk

set_option maxRecDepth 16384

noncomputable section

namespace Cert.KernelIdeal.Stretches

open Cert.KernelIdeal Cert.KernelIdeal.Gen Idealize.ShloMosaic Idealize.ShloMosaic.TcCoe Idealize.ShloMosaic.StableHlo
open Cert.Gcn

variable (V : Valuation τ sig (Elt Ideal))

/-! ## The first stretch: the edge list's rows and the two kinds of weight -/

theorem sources : after (hostOps0 (F := Ideal)) V (Proc.devRef .tc main_v1) = src (V (Proc.devRef .tc main_arg1)) := by
  walk_back [hostOps0]; rfl

theorem targets : after (hostOps0 (F := Ideal)) V (Proc.devRef .tc main_v3) = dst (V (Proc.devRef .tc main_arg1)) := by
  walk_back [hostOps0]; rfl

theorem edge_weights : after (hostOps0 (F := Ideal)) V (Proc.devRef .tc main_v25)
    = edgeWeight (src (V (Proc.devRef .tc main_arg1))) (dst (V (Proc.devRef .tc main_arg1))) := by
  walk_back [hostOps0]; rfl

theorem self_weights : after (hostOps0 (F := Ideal)) V (Proc.devRef .tc main_v27)
    = selfWeight (dst (V (Proc.devRef .tc main_arg1))) := by
  walk_back [hostOps0]; rfl

theorem keeps0_arg0 : after (hostOps0 (F := Ideal)) V (Proc.devRef .tc main_arg0) = V (Proc.devRef .tc main_arg0) := by
  walk_back [hostOps0]
theorem keeps0_arg2 : after (hostOps0 (F := Ideal)) V (Proc.devRef .tc main_arg2) = V (Proc.devRef .tc main_arg2) := by
  walk_back [hostOps0]
theorem keeps0_arg3 : after (hostOps0 (F := Ideal)) V (Proc.devRef .tc main_arg3) = V (Proc.devRef .tc main_arg3) := by
  walk_back [hostOps0]
theorem keeps0_arg4 : after (hostOps0 (F := Ideal)) V (Proc.devRef .tc main_arg4) = V (Proc.devRef .tc main_arg4) := by
  walk_back [hostOps0]
theorem keeps0_arg5 : after (hostOps0 (F := Ideal)) V (Proc.devRef .tc main_arg5) = V (Proc.devRef .tc main_arg5) := by
  walk_back [hostOps0]

/-! ## The second and third stretches: the first layer on the first product's buffer, then relu -/

theorem hidden_layer : after (hostOps1_1 (F := Ideal)) (after (hostOps1 (F := Ideal)) V) (Proc.devRef .tc main_v49)
    = relu64 (layer64 (V (Proc.devRef .tc main_v28)) (V (Proc.devRef .tc main_v1)) (V (Proc.devRef .tc main_v3))
        (V (Proc.devRef .tc main_v25)) (V (Proc.devRef .tc main_v27)) (V (Proc.devRef .tc main_arg3))) := by
  walk_back [hostOps1, hostOps1_1]; rfl

theorem keeps1_v1 : after (hostOps1_1 (F := Ideal)) (after (hostOps1 (F := Ideal)) V) (Proc.devRef .tc main_v1) = V (Proc.devRef .tc main_v1) := by
  walk_back [hostOps1, hostOps1_1]
theorem keeps1_v3 : after (hostOps1_1 (F := Ideal)) (after (hostOps1 (F := Ideal)) V) (Proc.devRef .tc main_v3) = V (Proc.devRef .tc main_v3) := by
  walk_back [hostOps1, hostOps1_1]
theorem keeps1_v25 : after (hostOps1_1 (F := Ideal)) (after (hostOps1 (F := Ideal)) V) (Proc.devRef .tc main_v25) = V (Proc.devRef .tc main_v25) := by
  walk_back [hostOps1, hostOps1_1]
theorem keeps1_v27 : after (hostOps1_1 (F := Ideal)) (after (hostOps1 (F := Ideal)) V) (Proc.devRef .tc main_v27) = V (Proc.devRef .tc main_v27) := by
  walk_back [hostOps1, hostOps1_1]
theorem keeps1_arg4 : after (hostOps1_1 (F := Ideal)) (after (hostOps1 (F := Ideal)) V) (Proc.devRef .tc main_arg4) = V (Proc.devRef .tc main_arg4) := by
  walk_back [hostOps1, hostOps1_1]
theorem keeps1_arg5 : after (hostOps1_1 (F := Ideal)) (after (hostOps1 (F := Ideal)) V) (Proc.devRef .tc main_arg5) = V (Proc.devRef .tc main_arg5) := by
  walk_back [hostOps1, hostOps1_1]

/-! ## The fourth and fifth stretches: the second layer on the second product's buffer, then log_softmax -/

theorem second_layer : after (hostOps2 (F := Ideal)) V (Proc.devRef .tc main_v70)
    = layer32 (V (Proc.devRef .tc main_v50)) (V (Proc.devRef .tc main_v1)) (V (Proc.devRef .tc main_v3))
        (V (Proc.devRef .tc main_v25)) (V (Proc.devRef .tc main_v27)) (V (Proc.devRef .tc main_arg5)) := by
  walk_back [hostOps2]; rfl

theorem log_softmax_rows : after (hostOps2_1 (F := Ideal)) V (Proc.devRef .tc main_v71)
    = logSoftmax (V (Proc.devRef .tc main_v70)) := by
  walk_back [hostOps2_1]; rfl

end Cert.KernelIdeal.Stretches

end
-- ==== Proof.RowBlocks0.lean ====
/-
  The first product, a block of rows at a time.

  The grid has 32 points; point t multiplies rows 2048·t … 2048·t + 2047 of the left array (all 1024 columns) by the
  whole right array, the operands cast to bfloat16 first — on the extended reals a change of float format is the
  identity — and writes rows 2048·t … 2048·t + 2047 of the result. A row of a matrix product depends on that row of the
  left operand only, so block t of the result IS block t of the whole product, and the 32 blocks tile the 65536 rows:
  after the region the result array holds the product of the two arrays as the region found them.
-/
import proofs.«178939_j33758442947404_1_alg».proof.Proof.Gen.KernelIdeal.Frame
import proofs.«178939_j33758442947404_1_alg».proof.Proof.LibWholeProduct
import Idealize.ShloMosaic.Lib.Pipeline.Value
import Idealize.ShloMosaic.Lib.ValueIdx

set_option maxRecDepth 16384

noncomputable section

open scoped BigOperators

namespace Cert.KernelIdeal.RowBlocks

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The first body's dimension numbers are a plain product's. -/
theorem plain0 : Cert.PlainDot.IsPlain dot_S2048x1024_S1024x64_S2048x64_1_0_0_1_n_n := ⟨rfl, rfl, rfl, rfl, rfl, rfl⟩

/-- What the first body stores: the product of the two blocks it loaded (the casts to bfloat16 are the identity). -/
theorem body0_eq (x0 : Vec Ideal S2048x1024 .f32) (x1 : Vec Ideal S1024x64 .f32) :
    k0_pay1 x0 x1 = Cert.Product.mm x0 x1 := by
  unfold k0_pay1
  exact Cert.Product.matmul_zero_eq plain0 none _ _

/-- The printed index maps over the grid: the left operand's block row and the result's block row are the point's
    number, every other block index is 0. -/
theorem index_maps0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 31 :=
  (by decide +kernel : ∀ t : Fin grid0.N, _)

/-- Every block row of the result is some point's. -/
theorem index_onto0 : ∀ q0 : Fin 32, ∃ t : Fin cfg0.N, win0_2.index t = ![q0.val, 0] :=
  (by decide +kernel : ∀ q0 : Fin 32, ∃ t : Fin grid0.N, win0_2.index t = ![q0.val, 0])

/-- What point t writes back is block t of the whole product of the arrays the region found. -/
theorem flushed0 (c : Dev nD) (t : Fin cfg0.N) :
    (dat0 V c).flushed 2 t
      = ((cfg0.win 2).blk t).view.read (Elt Ideal) (Cert.Product.mm (V c main_arg0) (V c main_arg2)) := by
  show (cfg0.win 2).cut (grid0.coords t) ((dat0 V c).after 2 t) = _
  rw [after0_2]
  unfold out0_2
  rw [View.canon_unit_zero zero_offsets]
  simp only [View.ld_unit_zero (S := S2048x1024) zero_offsets, View.ld_unit_zero (S := S1024x64) zero_offsets]
  rw [body0_eq]
  obtain ⟨e0, e1, e2, e3, e4, e5⟩ := index_maps0 t
  funext j
  refine Cert.Product.mm_eq_of_row_col (iblk0 V c 0 t) (iblk0 V c 1 t) (V c main_arg0) (V c main_arg2) j
    (((cfg0.win 2).blk t).view.emb j) (fun q => ?_) (fun q => ?_)
  · show V c main_arg0 (((cfg0.win 0).blk t).view.emb (ix2 (j 0) q)) = V c main_arg0 (ix2 ((((cfg0.win 2).blk t).view.emb j) 0) q)
    refine congrArg (V c main_arg0) ?_
    funext a; apply Fin.ext
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 1024 + 1 * q.val = q.val; omega
  · show V c main_arg2 (((cfg0.win 1).blk t).view.emb (ix2 q (j 1))) = V c main_arg2 (ix2 q ((((cfg0.win 2).blk t).view.emb j) 1))
    refine congrArg (V c main_arg2) ?_
    funext a; apply Fin.ext
    match a with
    | ⟨0, _⟩ => show win0_1.index t (0 : Fin 2) * 1024 + 1 * q.val = q.val; omega
    | ⟨1, _⟩ => show win0_1.index t (1 : Fin 2) * 64 + 1 * (j 1).val = win0_2.index t (1 : Fin 2) * 64 + 1 * (j 1).val; omega

/-- An index of the result array is in point t's block iff each coordinate is in the block's range on its axis. -/
theorem mem_block0 (t : Fin cfg0.N) (i : S65536x64.Idx) :
    i ∈ ((cfg0.win 2).blk t).view.set ↔ ∀ a : Fin 2, win0_2.index t a * S2048x64.size a ≤ (i a).val ∧ (i a).val < win0_2.index t a * S2048x64.size a + S2048x64.size a := by
  show i ∈ ((View.whole main_v28).slice (win0_2.rect t)).set ↔ _
  rw [View.set_slice_whole, Rect.mem_set_unit]
  exact Iff.rfl

/-- The 32 blocks of 2048 rows cover the 65536 rows: row r is in block r / 2048. -/
theorem cover0 (i : S65536x64.Idx) : ∃ t : Fin cfg0.N, (cfg0.win 2).flush t = true ∧ i ∈ ((cfg0.win 2).blk t).view.set := by
  have hi0 : (i 0).val < 65536 := (i 0).isLt
  have hi1 : (i 1).val < 64 := (i 1).isLt
  obtain ⟨t, ht⟩ := index_onto0 ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 64 ≤ (i 1).val ∧ (i 1).val < win0_2.index t (1 : Fin 2) * 64 + 64; omega

/-- After the first region the result array holds the product of the two operand arrays as the region found them. -/
theorem product0 (c : Dev nD) :
    (dat0 V c).arrAt 2 cfg0.N = Cert.Product.mm (V c main_arg0) (V c main_arg2) :=
  (dat0 V c).arrAt_eq_of_cover 2 (Cert.Product.mm (V c main_arg0) (V c main_arg2)) (fun t _ => flushed0 V c t) (cover0)

end Cert.KernelIdeal.RowBlocks

end
-- ==== Proof.RowBlocks1.lean ====
/-
  The second product, a block of rows at a time.

  The grid has 8 points; point t multiplies rows 8192·t … 8192·t + 8191 of the left array (all 64 columns) by the
  whole right array and writes rows 8192·t … 8192·t + 8191 of the result (the body's reshape of its block to the
  block's own shape changes nothing). A row of a matrix product depends on that row of the left operand only, so
  block t of the result IS block t of the whole product, and the 8 blocks tile the 65536 rows: after the region the
  result array holds the product of the two arrays as the region found them.
-/
import proofs.«178939_j33758442947404_1_alg».proof.Proof.Gen.KernelIdeal.Frame
import proofs.«178939_j33758442947404_1_alg».proof.Proof.LibWholeProduct
import Idealize.ShloMosaic.Lib.Pipeline.Value
import Idealize.ShloMosaic.Lib.ValueIdx

set_option maxRecDepth 16384

noncomputable section

open scoped BigOperators

namespace Cert.KernelIdeal.RowBlocks2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The second body's dimension numbers are a plain product's. -/
theorem plain1 : Cert.PlainDot.IsPlain dot_S8192x64_S64x32_S8192x32_1_0_0_1_n_n := ⟨rfl, rfl, rfl, rfl, rfl, rfl⟩

/-- What the second body stores: the product of the two blocks it loaded (its reshape of the left block to the
    block's own shape is the identity). -/
theorem body1_eq (x0 : Vec Ideal S8192x64 .f32) (x1 : Vec Ideal S64x32 .f32) :
    k1_pay1 x0 x1 = Cert.Product.mm x0 x1 := by
  unfold k1_pay1
  rw [shapeCast_self]
  exact Cert.Product.matmul_zero_eq plain1 none _ _

/-- The printed index maps over the grid: the left operand's block row and the result's block row are the point's
    number, every other block index is 0. -/
theorem index_maps1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 7 :=
  (by decide +kernel : ∀ t : Fin grid1.N, _)

/-- Every block row of the result is some point's. -/
theorem index_onto1 : ∀ q0 : Fin 8, ∃ t : Fin cfg1.N, win1_2.index t = ![q0.val, 0] :=
  (by decide +kernel : ∀ q0 : Fin 8, ∃ t : Fin grid1.N, win1_2.index t = ![q0.val, 0])

/-- What point t writes back is block t of the whole product of the arrays the region found. -/
theorem flushed1 (c : Dev nD) (t : Fin cfg1.N) :
    (dat1 V c).flushed 2 t
      = ((cfg1.win 2).blk t).view.read (Elt Ideal) (Cert.Product.mm (V c main_v49) (V c main_arg4)) := by
  show (cfg1.win 2).cut (grid1.coords t) ((dat1 V c).after 2 t) = _
  rw [after1_2]
  unfold out1_2
  rw [View.canon_unit_zero zero_offsets]
  simp only [View.ld_unit_zero (S := S8192x64) zero_offsets, View.ld_unit_zero (S := S64x32) zero_offsets]
  rw [body1_eq]
  obtain ⟨e0, e1, e2, e3, e4, e5⟩ := index_maps1 t
  funext j
  refine Cert.Product.mm_eq_of_row_col (iblk1 V c 0 t) (iblk1 V c 1 t) (V c main_v49) (V c main_arg4) j
    (((cfg1.win 2).blk t).view.emb j) (fun q => ?_) (fun q => ?_)
  · show V c main_v49 (((cfg1.win 0).blk t).view.emb (ix2 (j 0) q)) = V c main_v49 (ix2 ((((cfg1.win 2).blk t).view.emb j) 0) q)
    refine congrArg (V c main_v49) ?_
    funext a; apply Fin.ext
    match a with
    | ⟨0, _⟩ => show win1_0.index t (0 : Fin 2) * 8192 + 1 * (j 0).val = win1_2.index t (0 : Fin 2) * 8192 + 1 * (j 0).val; omega
    | ⟨1, _⟩ => show win1_0.index t (1 : Fin 2) * 64 + 1 * q.val = q.val; omega
  · show V c main_arg4 (((cfg1.win 1).blk t).view.emb (ix2 q (j 1))) = V c main_arg4 (ix2 q ((((cfg1.win 2).blk t).view.emb j) 1))
    refine congrArg (V c main_arg4) ?_
    funext a; apply Fin.ext
    match a with
    | ⟨0, _⟩ => show win1_1.index t (0 : Fin 2) * 64 + 1 * q.val = q.val; omega
    | ⟨1, _⟩ => show win1_1.index t (1 : Fin 2) * 32 + 1 * (j 1).val = win1_2.index t (1 : Fin 2) * 32 + 1 * (j 1).val; omega

/-- An index of the result array is in point t's block iff each coordinate is in the block's range on its axis. -/
theorem mem_block1 (t : Fin cfg1.N) (i : S65536x32.Idx) :
    i ∈ ((cfg1.win 2).blk t).view.set ↔ ∀ a : Fin 2, win1_2.index t a * S8192x32.size a ≤ (i a).val ∧ (i a).val < win1_2.index t a * S8192x32.size a + S8192x32.size a := by
  show i ∈ ((View.whole main_v50).slice (win1_2.rect t)).set ↔ _
  rw [View.set_slice_whole, Rect.mem_set_unit]
  exact Iff.rfl

/-- The 8 blocks of 8192 rows cover the 65536 rows: row r is in block r / 8192. -/
theorem cover1 (i : S65536x32.Idx) : ∃ t : Fin cfg1.N, (cfg1.win 2).flush t = true ∧ i ∈ ((cfg1.win 2).blk t).view.set := by
  have hi0 : (i 0).val < 65536 := (i 0).isLt
  have hi1 : (i 1).val < 32 := (i 1).isLt
  obtain ⟨t, ht⟩ := index_onto1 ⟨(i 0).val / 8192, by omega⟩
  have q0 : win1_2.index t (0 : Fin 2) = (i 0).val / 8192 := congrFun ht 0
  have q1 : win1_2.index t (1 : Fin 2) = 0 := congrFun ht 1
  refine ⟨t, flush1_2 t, ?_⟩
  rw [mem_block1]
  intro a
  match a with
  | ⟨0, _⟩ => show win1_2.index t (0 : Fin 2) * 8192 ≤ (i 0).val ∧ (i 0).val < win1_2.index t (0 : Fin 2) * 8192 + 8192; omega
  | ⟨1, _⟩ => show win1_2.index t (1 : Fin 2) * 32 ≤ (i 1).val ∧ (i 1).val < win1_2.index t (1 : Fin 2) * 32 + 32; omega

/-- After the second region the result array holds the product of the two operand arrays as the region found them. -/
theorem product1 (c : Dev nD) :
    (dat1 V c).arrAt 2 cfg1.N = Cert.Product.mm (V c main_v49) (V c main_arg4) :=
  (dat1 V c).arrAt_eq_of_cover 2 (Cert.Product.mm (V c main_v49) (V c main_arg4)) (fun t _ => flushed1 V c t) (cover1)

end Cert.KernelIdeal.RowBlocks2

end
-- ==== Proof.KernelValue.lean ====
/-
  The kernel program's result is the network's value of its arguments.

  Read back from the return: the last two host stretches leave log_softmax of the second layer of the second product's
  buffer; that buffer holds, after the second region, the product of the hidden features — relu of the first layer of
  the first product's buffer, by the second and third stretches — with the second weight matrix; the first product's
  buffer holds, after the first region, the product of the first two float arguments; and the edge list's rows and the
  weights are what the first stretch computed from the edge list, carried unchanged through every later segment. No
  segment writes an argument.
-/
import proofs.«178939_j33758442947404_1_alg».proof.Proof.KernelRun
import proofs.«178939_j33758442947404_1_alg».proof.Proof.KernelStretches
import proofs.«178939_j33758442947404_1_alg».proof.Proof.RowBlocks0
import proofs.«178939_j33758442947404_1_alg».proof.Proof.RowBlocks1

set_option maxRecDepth 16384

noncomputable section

namespace Cert.KernelIdeal.Value

open Cert.KernelIdeal Cert.KernelIdeal.Gen Idealize.ShloMosaic Idealize.ShloMosaic.TcCoe Idealize.ShloMosaic.StableHlo Idealize.SL.Sem
open Cert.Gcn Cert.KernelIdeal.Stretches

variable (m : (ℓ : Loc nD τ sig) → Buf (Elt Ideal) ℓ) (ρ : Dev nD → PrngReg)

/-! ## Region entry and exit contents at the buffers the stages read -/

/-- At the first region's entry the first float argument is as launched. -/
theorem W1_arg0 (c : Dev nD) : W1 m ρ c (Proc.devRef .tc main_arg0) = m ((c : Thread nD τ).loc main_arg0) := keeps0_arg0 _
theorem W1_arg2 (c : Dev nD) : W1 m ρ c (Proc.devRef .tc main_arg2) = m ((c : Thread nD τ).loc main_arg2) := keeps0_arg2 _
theorem W1_arg3 (c : Dev nD) : W1 m ρ c (Proc.devRef .tc main_arg3) = m ((c : Thread nD τ).loc main_arg3) := keeps0_arg3 _
theorem W1_arg4 (c : Dev nD) : W1 m ρ c (Proc.devRef .tc main_arg4) = m ((c : Thread nD τ).loc main_arg4) := keeps0_arg4 _
theorem W1_arg5 (c : Dev nD) : W1 m ρ c (Proc.devRef .tc main_arg5) = m ((c : Thread nD τ).loc main_arg5) := keeps0_arg5 _

/-- After the first region its result buffer holds the product of the first two float arguments. -/
theorem W2_product (c : Dev nD) : W2 m ρ c (Proc.devRef .tc main_v28)
    = Cert.Product.mm (m ((c : Thread nD τ).loc main_arg0)) (m ((c : Thread nD τ).loc main_arg2)) := by
  refine (W2_arr m ρ c 2).trans ?_
  rw [Cert.KernelIdeal.RowBlocks.product0 (V1 m ρ) c]
  show Cert.Product.mm (W1 m ρ c (Proc.devRef .tc main_arg0)) (W1 m ρ c (Proc.devRef .tc main_arg2)) = _
  rw [W1_arg0, W1_arg2]

/-- The first region leaves every buffer but its three arrays as it found it. -/
theorem W2_v1 (c : Dev nD) : W2 m ρ c (Proc.devRef .tc main_v1) = src (m ((c : Thread nD τ).loc main_arg1)) :=
  (W2_of_ne m ρ c main_v1 (by decide)).trans (sources _)
theorem W2_v3 (c : Dev nD) : W2 m ρ c (Proc.devRef .tc main_v3) = dst (m ((c : Thread nD τ).loc main_arg1)) :=
  (W2_of_ne m ρ c main_v3 (by decide)).trans (targets _)
theorem W2_v25 (c : Dev nD) : W2 m ρ c (Proc.devRef .tc main_v25)
    = edgeWeight (src (m ((c : Thread nD τ).loc main_arg1))) (dst (m ((c : Thread nD τ).loc main_arg1))) :=
  (W2_of_ne m ρ c main_v25 (by decide)).trans (edge_weights _)
theorem W2_v27 (c : Dev nD) : W2 m ρ c (Proc.devRef .tc main_v27) = selfWeight (dst (m ((c : Thread nD τ).loc main_arg1))) :=
  (W2_of_ne m ρ c main_v27 (by decide)).trans (self_weights _)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)

/-- At the second region's entry the hidden features are relu of the first layer of the first product. -/
theorem W4_hidden (c : Dev nD) : W4 m ρ c (Proc.devRef .tc main_v49)
    = hidden (Cert.Product.mm (m ((c : Thread nD τ).loc main_arg0)) (m ((c : Thread nD τ).loc main_arg2)))
        (m ((c : Thread nD τ).loc main_arg1)) (m ((c : Thread nD τ).loc main_arg3)) := by
  refine (hidden_layer (W2 m ρ c)).trans ?_
  rw [W2_product, W2_v1, W2_v3, W2_v25, W2_v27, W2_arg3]
  rfl

theorem W4_v1 (c : Dev nD) : W4 m ρ c (Proc.devRef .tc main_v1) = src (m ((c : Thread nD τ).loc main_arg1)) :=
  (keeps1_v1 (W2 m ρ c)).trans (W2_v1 m ρ c)
theorem W4_v3 (c : Dev nD) : W4 m ρ c (Proc.devRef .tc main_v3) = dst (m ((c : Thread nD τ).loc main_arg1)) :=
  (keeps1_v3 (W2 m ρ c)).trans (W2_v3 m ρ c)
theorem W4_v25 (c : Dev nD) : W4 m ρ c (Proc.devRef .tc main_v25)
    = edgeWeight (src (m ((c : Thread nD τ).loc main_arg1))) (dst (m ((c : Thread nD τ).loc main_arg1))) :=
  (keeps1_v25 (W2 m ρ c)).trans (W2_v25 m ρ c)
theorem W4_v27 (c : Dev nD) : W4 m ρ c (Proc.devRef .tc main_v27) = selfWeight (dst (m ((c : Thread nD τ).loc main_arg1))) :=
  (keeps1_v27 (W2 m ρ c)).trans (W2_v27 m ρ c)
theorem W4_arg4 (c : Dev nD) : W4 m ρ c (Proc.devRef .tc main_arg4) = m ((c : Thread nD τ).loc main_arg4) :=
  (keeps1_arg4 (W2 m ρ c)).trans (W2_arg4 m ρ c)
theorem W4_arg5 (c : Dev nD) : W4 m ρ c (Proc.devRef .tc main_arg5) = m ((c : Thread nD τ).loc main_arg5) :=
  (keeps1_arg5 (W2 m ρ c)).trans (W2_arg5 m ρ c)

/-- After the second region its result buffer holds the product of the hidden features with the second weight matrix. -/
theorem W5_product (c : Dev nD) : W5 m ρ c (Proc.devRef .tc main_v50)
    = Cert.Product.mm (hidden (Cert.Product.mm (m ((c : Thread nD τ).loc main_arg0)) (m ((c : Thread nD τ).loc main_arg2)))
        (m ((c : Thread nD τ).loc main_arg1)) (m ((c : Thread nD τ).loc main_arg3))) (m ((c : Thread nD τ).loc main_arg4)) := by
  refine (W5_arr m ρ c 2).trans ?_
  rw [Cert.KernelIdeal.RowBlocks2.product1 (V4 m ρ) c]
  show Cert.Product.mm (W4 m ρ c (Proc.devRef .tc main_v49)) (W4 m ρ c (Proc.devRef .tc main_arg4)) = _
  rw [W4_hidden, W4_arg4]

/-- The kernel program's result buffer ends at the network's value of the arguments as launched. -/
theorem result_value (c : Dev nD) : W7 m ρ c (Proc.devRef .tc main_v71)
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (log_softmax_rows (W6 m ρ c)).trans ?_
  rw [show W6 m ρ c (Proc.devRef .tc main_v70) = _ from second_layer (W5 m ρ c), W5_product,
    (W5_of_ne m ρ c main_v1 (by decide)).trans (W4_v1 m ρ c), (W5_of_ne m ρ c main_v3 (by decide)).trans (W4_v3 m ρ c),
    (W5_of_ne m ρ c main_v25 (by decide)).trans (W4_v25 m ρ c), (W5_of_ne m ρ c main_v27 (by decide)).trans (W4_v27 m ρ c),
    (W5_of_ne m ρ c main_arg5 (by decide)).trans (W4_arg5 m ρ c)]
  rfl

/-- Every weakly fair execution of the kernel program terminates, nothing faulting, with the result buffer at the
    network's value of the arguments and every argument as launched. -/
theorem run : θ_run defs (onTc (τ := τ) (main (F := Ideal))) ⟨m, fun _ => 0, ρ⟩ (fun r => ∀ c : Dev nD,
      r.2.mem ((c.tc : Thread nD τ).loc main_v71)
        = network (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_value m ρ c), (h c).2⟩) (Cert.KernelIdeal.Run.run_result m ρ)

end Cert.KernelIdeal.Value

end
-- ==== Proof.RefRun.lean ====
/-
  The reference program's run.

  The reference's @main is one straight line of 134 host operations (the two small functions it calls, relu and
  log_softmax, standing at their call sites). Every weakly fair execution terminates without a fault, and the final
  memory holds in every buffer the fold of the operations' results over the launch memory. The line is cut into four
  stretches — the edge list's two rows and the first product; the first layer through relu; the second product and
  the second layer; log_softmax — so that each stretch is read by itself.
-/
import proofs.«178939_j33758442947404_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's 134 operations, in order. -/
abbrev ops : List (HloOp τ sig (Elt F)) :=
  [ unary main_arg1 main_v0 ((extractStridedSlice S1x1048576 ![0, 0] · slices_S2x1048576_S1x1048576_0_0) : (⟨S2x1048576, .i32⟩ : BufTy).Contents (Elt F) → (⟨S1x1048576, .i32⟩ : BufTy).Contents (Elt F)),
    reshape main_v0 main_v1 rfl shapeCasts_S1x1048576_S1048576,
    unary main_arg1 main_v2 ((extractStridedSlice S1x1048576 ![1, 0] · slices_S2x1048576_S1x1048576_1_0) : (⟨S2x1048576, .i32⟩ : BufTy).Contents (Elt F) → (⟨S1x1048576, .i32⟩ : BufTy).Contents (Elt F)),
    reshape main_v2 main_v3 rfl shapeCasts_S1x1048576_S1048576,
    binary main_arg0 main_arg2 main_v4 ((fun l r => Host.dotGeneral dot_S65536x1024_S1024x64_S65536x64_1_0_0_1_n_n none l r) : (⟨S65536x1024, .f32⟩ : BufTy).Contents (Elt F) → (⟨S1024x64, .f32⟩ : BufTy).Contents (Elt F) → (⟨S65536x64, .f32⟩ : BufTy).Contents (Elt F)),
    nullary main_cst (constant S_ .f32 0x3F800000#32),
    unary main_cst main_v5 (broadcastInDim S1048576 ![] bcast_S_S1048576 : (⟨S_, .f32⟩ : BufTy).Contents (Elt F) → (⟨S1048576, .f32⟩ : BufTy).Contents (Elt F)),
    nullary main_cst_0 (constant S_ .f32 0x00000000#32),
    unary main_cst_0 main_v6 (broadcastInDim S65536 ![] bcast_S_S65536 : (⟨S_, .f32⟩ : BufTy).Contents (Elt F) → (⟨S65536, .f32⟩ : BufTy).Contents (Elt F)),
    unary main_v3 main_v7 (broadcastInDim S1048576x1 ![0] bcast_S1048576_S1048576x1_0 : (⟨S1048576, .i32⟩ : BufTy).Contents (Elt F) → (⟨S1048576x1, .i32⟩ : BufTy).Contents (Elt F)),
    ternary main_v6 main_v7 main_v5 main_v8 ((fun x i u => Host.scatterAdd scatter_S65536_S1048576x1_S1048576_n_0_0_1 x i u) : (⟨S65536, .f32⟩ : BufTy).Contents (Elt F) → (⟨S1048576x1, .i32⟩ : BufTy).Contents (Elt F) → (⟨S1048576, .f32⟩ : BufTy).Contents (Elt F) → (⟨S65536, .f32⟩ : BufTy).Contents (Elt F)),
    nullary main_cst_1 (constant S_ .f32 0x3F800000#32),
    unary main_cst_1 main_v9 (broadcastInDim S65536 ![] bcast_S_S65536 : (⟨S_, .f32⟩ : BufTy).Contents (Elt F) → (⟨S65536, .f32⟩ : BufTy).Contents (Elt F)),
    binary main_v8 main_v9 main_v10 (addf : (⟨S65536, .f32⟩ : BufTy).Contents (Elt F) → (⟨S65536, .f32⟩ : BufTy).Contents (Elt F) → (⟨S65536, .f32⟩ : BufTy).Contents (Elt F)),
    unary main_v10 main_v11 (Host.rsqrt : (⟨S65536, .f32⟩ : BufTy).Contents (Elt F) → (⟨S65536, .f32⟩ : BufTy).Contents (Elt F)),
    nullary main_c (constantI S_ 32 0#32),
    unary main_c main_v12 (broadcastInDim S1048576 ![] bcast_S_S1048576 : (⟨S_, .i32⟩ : BufTy).Contents (Elt F) → (⟨S1048576, .i32⟩ : BufTy).Contents (Elt F)),
    binary main_v1 main_v12 main_v13 (cmpi .slt : (⟨S1048576, .i32⟩ : BufTy).Contents (Elt F) → (⟨S1048576, .i32⟩ : BufTy).Contents (Elt F) → (⟨S1048576, .i1⟩ : BufTy).Contents (Elt F)),
    nullary main_c_2 (constantI S_ 32 65536#32),
    unary main_c_2 main_v14 (broadcastInDim S1048576 ![] bcast_S_S1048576 : (⟨S_, .i32⟩ : BufTy).Contents (Elt F) → (⟨S1048576, .i32⟩ : BufTy).Contents (Elt F)),
    binary main_v1 main_v14 main_v15 (addi : (⟨S1048576, .i32⟩ : BufTy).Contents (Elt F) → (⟨S1048576, .i32⟩ : BufTy).Contents (Elt F) → (⟨S1048576, .i32⟩ : BufTy).Contents (Elt F)),
    ternary main_v13 main_v15 main_v1 main_v16 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v16 main_v17 (broadcastInDim S1048576x1 ![0] bcast_S1048576_S1048576x1_0 : (⟨S1048576, .i32⟩ : BufTy).Contents (Elt F) → (⟨S1048576x1, .i32⟩ : BufTy).Contents (Elt F)),
    binary main_v11 main_v17 main_v18 ((fun x i => Host.gather gather_S65536_S1048576x1_S1048576_n_0_n_n_0_1_1 x i) : (⟨S65536, .f32⟩ : BufTy).Contents (Elt F) → (⟨S1048576x1, .i32⟩ : BufTy).Contents (Elt F) → (⟨S1048576, .f32⟩ : BufTy).Contents (Elt F)),
    nullary main_c_3 (constantI S_ 32 0#32),
    unary main_c_3 main_v19 (broadcastInDim S1048576 ![] bcast_S_S1048576 : (⟨S_, .i32⟩ : BufTy).Contents (Elt F) → (⟨S1048576, .i32⟩ : BufTy).Contents (Elt F)),
    binary main_v3 main_v19 main_v20 (cmpi .slt : (⟨S1048576, .i32⟩ : BufTy).Contents (Elt F) → (⟨S1048576, .i32⟩ : BufTy).Contents (Elt F) → (⟨S1048576, .i1⟩ : BufTy).Contents (Elt F)),
    nullary main_c_4 (constantI S_ 32 65536#32),
    unary main_c_4 main_v21 (broadcastInDim S1048576 ![] bcast_S_S1048576 : (⟨S_, .i32⟩ : BufTy).Contents (Elt F) → (⟨S1048576, .i32⟩ : BufTy).Contents (Elt F)),
    binary main_v3 main_v21 main_v22 (addi : (⟨S1048576, .i32⟩ : BufTy).Contents (Elt F) → (⟨S1048576, .i32⟩ : BufTy).Contents (Elt F) → (⟨S1048576, .i32⟩ : BufTy).Contents (Elt F)),
    ternary main_v20 main_v22 main_v3 main_v23 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v23 main_v24 (broadcastInDim S1048576x1 ![0] bcast_S1048576_S1048576x1_0 : (⟨S1048576, .i32⟩ : BufTy).Contents (Elt F) → (⟨S1048576x1, .i32⟩ : BufTy).Contents (Elt F)),
    binary main_v11 main_v24 main_v25 ((fun x i => Host.gather gather_S65536_S1048576x1_S1048576_n_0_n_n_0_1_1 x i) : (⟨S65536, .f32⟩ : BufTy).Contents (Elt F) → (⟨S1048576x1, .i32⟩ : BufTy).Contents (Elt F) → (⟨S1048576, .f32⟩ : BufTy).Contents (Elt F)),
    binary main_v18 main_v25 main_v26 (mulf : (⟨S1048576, .f32⟩ : BufTy).Contents (Elt F) → (⟨S1048576, .f32⟩ : BufTy).Contents (Elt F) → (⟨S1048576, .f32⟩ : BufTy).Contents (Elt F)),
    nullary main_c_5 (constantI S_ 32 0#32),
    unary main_c_5 main_v27 (broadcastInDim S1048576 ![] bcast_S_S1048576 : (⟨S_, .i32⟩ : BufTy).Contents (Elt F) → (⟨S1048576, .i32⟩ : BufTy).Contents (Elt F)),
    binary main_v1 main_v27 main_v28 (cmpi .slt : (⟨S1048576, .i32⟩ : BufTy).Contents (Elt F) → (⟨S1048576, .i32⟩ : BufTy).Contents (Elt F) → (⟨S1048576, .i1⟩ : BufTy).Contents (Elt F)),
    nullary main_c_6 (constantI S_ 32 65536#32),
    unary main_c_6 main_v29 (broadcastInDim S1048576 ![] bcast_S_S1048576 : (⟨S_, .i32⟩ : BufTy).Contents (Elt F) → (⟨S1048576, .i32⟩ : BufTy).Contents (Elt F)),
    binary main_v1 main_v29 main_v30 (addi : (⟨S1048576, .i32⟩ : BufTy).Contents (Elt F) → (⟨S1048576, .i32⟩ : BufTy).Contents (Elt F) → (⟨S1048576, .i32⟩ : BufTy).Contents (Elt F)),
    ternary main_v28 main_v30 main_v1 main_v31 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v31 main_v32 (broadcastInDim S1048576x1 ![0] bcast_S1048576_S1048576x1_0 : (⟨S1048576, .i32⟩ : BufTy).Contents (Elt F) → (⟨S1048576x1, .i32⟩ : BufTy).Contents (Elt F)),
    binary main_v4 main_v32 main_v33 ((fun x i => Host.gather gather_S65536x64_S1048576x1_S1048576x64_1_0_n_n_0_1_164 x i) : (⟨S65536x64, .f32⟩ : BufTy).Contents (Elt F) → (⟨S1048576x1, .i32⟩ : BufTy).Contents (Elt F) → (⟨S1048576x64, .f32⟩ : BufTy).Contents (Elt F)),
    unary main_v26 main_v34 (broadcastInDim S1048576x1 ![0] bcast_S1048576_S1048576x1_0 : (⟨S1048576, .f32⟩ : BufTy).Contents (Elt F) → (⟨S1048576x1, .f32⟩ : BufTy).Contents (Elt F)),
    unary main_v34 main_v35 (broadcastInDim S1048576x64 ![0, 1] bcast_S1048576x1_S1048576x64_0_1 : (⟨S1048576x1, .f32⟩ : BufTy).Contents (Elt F) → (⟨S1048576x64, .f32⟩ : BufTy).Contents (Elt F)),
    binary main_v33 main_v35 main_v36 (mulf : (⟨S1048576x64, .f32⟩ : BufTy).Contents (Elt F) → (⟨S1048576x64, .f32⟩ : BufTy).Contents (Elt F) → (⟨S1048576x64, .f32⟩ : BufTy).Contents (Elt F)),
    nullary main_cst_7 (constant S_ .f32 0x00000000#32),
    unary main_cst_7 main_v37 (broadcastInDim S65536x64 ![] bcast_S_S65536x64 : (⟨S_, .f32⟩ : BufTy).Contents (Elt F) → (⟨S65536x64, .f32⟩ : BufTy).Contents (Elt F)),
    unary main_v3 main_v38 (broadcastInDim S1048576x1 ![0] bcast_S1048576_S1048576x1_0 : (⟨S1048576, .i32⟩ : BufTy).Contents (Elt F) → (⟨S1048576x1, .i32⟩ : BufTy).Contents (Elt F)),
    ternary main_v37 main_v38 main_v36 main_v39 ((fun x i u => Host.scatterAdd scatter_S65536x64_S1048576x1_S1048576x64_1_0_0_1 x i u) : (⟨S65536x64, .f32⟩ : BufTy).Contents (Elt F) → (⟨S1048576x1, .i32⟩ : BufTy).Contents (Elt F) → (⟨S1048576x64, .f32⟩ : BufTy).Contents (Elt F) → (⟨S65536x64, .f32⟩ : BufTy).Contents (Elt F)),
    nullary main_cst_8 (constant S_ .f32 0x3F800000#32),
    unary main_cst_8 main_v40 (broadcastInDim S65536 ![] bcast_S_S65536 : (⟨S_, .f32⟩ : BufTy).Contents (Elt F) → (⟨S65536, .f32⟩ : BufTy).Contents (Elt F)),
    binary main_v40 main_v10 main_v41 (Host.divf : (⟨S65536, .f32⟩ : BufTy).Contents (Elt F) → (⟨S65536, .f32⟩ : BufTy).Contents (Elt F) → (⟨S65536, .f32⟩ : BufTy).Contents (Elt F)),
    unary main_v41 main_v42 (broadcastInDim S65536x1 ![0] bcast_S65536_S65536x1_0 : (⟨S65536, .f32⟩ : BufTy).Contents (Elt F) → (⟨S65536x1, .f32⟩ : BufTy).Contents (Elt F)),
    unary main_v42 main_v43 (broadcastInDim S65536x64 ![0, 1] bcast_S65536x1_S65536x64_0_1 : (⟨S65536x1, .f32⟩ : BufTy).Contents (Elt F) → (⟨S65536x64, .f32⟩ : BufTy).Contents (Elt F)),
    binary main_v4 main_v43 main_v44 (mulf : (⟨S65536x64, .f32⟩ : BufTy).Contents (Elt F) → (⟨S65536x64, .f32⟩ : BufTy).Contents (Elt F) → (⟨S65536x64, .f32⟩ : BufTy).Contents (Elt F)),
    binary main_v39 main_v44 main_v45 (addf : (⟨S65536x64, .f32⟩ : BufTy).Contents (Elt F) → (⟨S65536x64, .f32⟩ : BufTy).Contents (Elt F) → (⟨S65536x64, .f32⟩ : BufTy).Contents (Elt F)),
    unary main_arg3 main_v46 (broadcastInDim S1x64 ![1] bcast_S64_S1x64_1 : (⟨S64, .f32⟩ : BufTy).Contents (Elt F) → (⟨S1x64, .f32⟩ : BufTy).Contents (Elt F)),
    unary main_v46 main_v47 (broadcastInDim S65536x64 ![0, 1] bcast_S1x64_S65536x64_0_1 : (⟨S1x64, .f32⟩ : BufTy).Contents (Elt F) → (⟨S65536x64, .f32⟩ : BufTy).Contents (Elt F)),
    binary main_v45 main_v47 main_v48 (addf : (⟨S65536x64, .f32⟩ : BufTy).Contents (Elt F) → (⟨S65536x64, .f32⟩ : BufTy).Contents (Elt F) → (⟨S65536x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S65536x64, .f32⟩) main_call0_v0) (broadcastInDim S65536x64 ![] bcast_S_S65536x64),
    TRef.binary (TRef.of (T := ⟨S65536x64, .f32⟩) main_v48) (TRef.of (T := ⟨S65536x64, .f32⟩) main_call0_v0) (TRef.of (T := ⟨S65536x64, .f32⟩) main_v49) maximumf,
    binary main_v49 main_arg4 main_v50 ((fun l r => Host.dotGeneral dot_S65536x64_S64x32_S65536x32_1_0_0_1_n_n none l r) : (⟨S65536x64, .f32⟩ : BufTy).Contents (Elt F) → (⟨S64x32, .f32⟩ : BufTy).Contents (Elt F) → (⟨S65536x32, .f32⟩ : BufTy).Contents (Elt F)),
    nullary main_cst_9 (constant S_ .f32 0x3F800000#32),
    unary main_cst_9 main_v51 (broadcastInDim S1048576 ![] bcast_S_S1048576 : (⟨S_, .f32⟩ : BufTy).Contents (Elt F) → (⟨S1048576, .f32⟩ : BufTy).Contents (Elt F)),
    nullary main_cst_10 (constant S_ .f32 0x00000000#32),
    unary main_cst_10 main_v52 (broadcastInDim S65536 ![] bcast_S_S65536 : (⟨S_, .f32⟩ : BufTy).Contents (Elt F) → (⟨S65536, .f32⟩ : BufTy).Contents (Elt F)),
    unary main_v3 main_v53 (broadcastInDim S1048576x1 ![0] bcast_S1048576_S1048576x1_0 : (⟨S1048576, .i32⟩ : BufTy).Contents (Elt F) → (⟨S1048576x1, .i32⟩ : BufTy).Contents (Elt F)),
    ternary main_v52 main_v53 main_v51 main_v54 ((fun x i u => Host.scatterAdd scatter_S65536_S1048576x1_S1048576_n_0_0_1 x i u) : (⟨S65536, .f32⟩ : BufTy).Contents (Elt F) → (⟨S1048576x1, .i32⟩ : BufTy).Contents (Elt F) → (⟨S1048576, .f32⟩ : BufTy).Contents (Elt F) → (⟨S65536, .f32⟩ : BufTy).Contents (Elt F)),
    nullary main_cst_11 (constant S_ .f32 0x3F800000#32),
    unary main_cst_11 main_v55 (broadcastInDim S65536 ![] bcast_S_S65536 : (⟨S_, .f32⟩ : BufTy).Contents (Elt F) → (⟨S65536, .f32⟩ : BufTy).Contents (Elt F)),
    binary main_v54 main_v55 main_v56 (addf : (⟨S65536, .f32⟩ : BufTy).Contents (Elt F) → (⟨S65536, .f32⟩ : BufTy).Contents (Elt F) → (⟨S65536, .f32⟩ : BufTy).Contents (Elt F)),
    unary main_v56 main_v57 (Host.rsqrt : (⟨S65536, .f32⟩ : BufTy).Contents (Elt F) → (⟨S65536, .f32⟩ : BufTy).Contents (Elt F)),
    nullary main_c_12 (constantI S_ 32 0#32),
    unary main_c_12 main_v58 (broadcastInDim S1048576 ![] bcast_S_S1048576 : (⟨S_, .i32⟩ : BufTy).Contents (Elt F) → (⟨S1048576, .i32⟩ : BufTy).Contents (Elt F)),
    binary main_v1 main_v58 main_v59 (cmpi .slt : (⟨S1048576, .i32⟩ : BufTy).Contents (Elt F) → (⟨S1048576, .i32⟩ : BufTy).Contents (Elt F) → (⟨S1048576, .i1⟩ : BufTy).Contents (Elt F)),
    nullary main_c_13 (constantI S_ 32 65536#32),
    unary main_c_13 main_v60 (broadcastInDim S1048576 ![] bcast_S_S1048576 : (⟨S_, .i32⟩ : BufTy).Contents (Elt F) → (⟨S1048576, .i32⟩ : BufTy).Contents (Elt F)),
    binary main_v1 main_v60 main_v61 (addi : (⟨S1048576, .i32⟩ : BufTy).Contents (Elt F) → (⟨S1048576, .i32⟩ : BufTy).Contents (Elt F) → (⟨S1048576, .i32⟩ : BufTy).Contents (Elt F)),
    ternary main_v59 main_v61 main_v1 main_v62 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v62 main_v63 (broadcastInDim S1048576x1 ![0] bcast_S1048576_S1048576x1_0 : (⟨S1048576, .i32⟩ : BufTy).Contents (Elt F) → (⟨S1048576x1, .i32⟩ : BufTy).Contents (Elt F)),
    binary main_v57 main_v63 main_v64 ((fun x i => Host.gather gather_S65536_S1048576x1_S1048576_n_0_n_n_0_1_1 x i) : (⟨S65536, .f32⟩ : BufTy).Contents (Elt F) → (⟨S1048576x1, .i32⟩ : BufTy).Contents (Elt F) → (⟨S1048576, .f32⟩ : BufTy).Contents (Elt F)),
    nullary main_c_14 (constantI S_ 32 0#32),
    unary main_c_14 main_v65 (broadcastInDim S1048576 ![] bcast_S_S1048576 : (⟨S_, .i32⟩ : BufTy).Contents (Elt F) → (⟨S1048576, .i32⟩ : BufTy).Contents (Elt F)),
    binary main_v3 main_v65 main_v66 (cmpi .slt : (⟨S1048576, .i32⟩ : BufTy).Contents (Elt F) → (⟨S1048576, .i32⟩ : BufTy).Contents (Elt F) → (⟨S1048576, .i1⟩ : BufTy).Contents (Elt F)),
    nullary main_c_15 (constantI S_ 32 65536#32),
    unary main_c_15 main_v67 (broadcastInDim S1048576 ![] bcast_S_S1048576 : (⟨S_, .i32⟩ : BufTy).Contents (Elt F) → (⟨S1048576, .i32⟩ : BufTy).Contents (Elt F)),
    binary main_v3 main_v67 main_v68 (addi : (⟨S1048576, .i32⟩ : BufTy).Contents (Elt F) → (⟨S1048576, .i32⟩ : BufTy).Contents (Elt F) → (⟨S1048576, .i32⟩ : BufTy).Contents (Elt F)),
    ternary main_v66 main_v68 main_v3 main_v69 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v69 main_v70 (broadcastInDim S1048576x1 ![0] bcast_S1048576_S1048576x1_0 : (⟨S1048576, .i32⟩ : BufTy).Contents (Elt F) → (⟨S1048576x1, .i32⟩ : BufTy).Contents (Elt F)),
    binary main_v57 main_v70 main_v71 ((fun x i => Host.gather gather_S65536_S1048576x1_S1048576_n_0_n_n_0_1_1 x i) : (⟨S65536, .f32⟩ : BufTy).Contents (Elt F) → (⟨S1048576x1, .i32⟩ : BufTy).Contents (Elt F) → (⟨S1048576, .f32⟩ : BufTy).Contents (Elt F)),
    binary main_v64 main_v71 main_v72 (mulf : (⟨S1048576, .f32⟩ : BufTy).Contents (Elt F) → (⟨S1048576, .f32⟩ : BufTy).Contents (Elt F) → (⟨S1048576, .f32⟩ : BufTy).Contents (Elt F)),
    nullary main_c_16 (constantI S_ 32 0#32),
    unary main_c_16 main_v73 (broadcastInDim S1048576 ![] bcast_S_S1048576 : (⟨S_, .i32⟩ : BufTy).Contents (Elt F) → (⟨S1048576, .i32⟩ : BufTy).Contents (Elt F)),
    binary main_v1 main_v73 main_v74 (cmpi .slt : (⟨S1048576, .i32⟩ : BufTy).Contents (Elt F) → (⟨S1048576, .i32⟩ : BufTy).Contents (Elt F) → (⟨S1048576, .i1⟩ : BufTy).Contents (Elt F)),
    nullary main_c_17 (constantI S_ 32 65536#32),
    unary main_c_17 main_v75 (broadcastInDim S1048576 ![] bcast_S_S1048576 : (⟨S_, .i32⟩ : BufTy).Contents (Elt F) → (⟨S1048576, .i32⟩ : BufTy).Contents (Elt F)),
    binary main_v1 main_v75 main_v76 (addi : (⟨S1048576, .i32⟩ : BufTy).Contents (Elt F) → (⟨S1048576, .i32⟩ : BufTy).Contents (Elt F) → (⟨S1048576, .i32⟩ : BufTy).Contents (Elt F)),
    ternary main_v74 main_v76 main_v1 main_v77 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v77 main_v78 (broadcastInDim S1048576x1 ![0] bcast_S1048576_S1048576x1_0 : (⟨S1048576, .i32⟩ : BufTy).Contents (Elt F) → (⟨S1048576x1, .i32⟩ : BufTy).Contents (Elt F)),
    binary main_v50 main_v78 main_v79 ((fun x i => Host.gather gather_S65536x32_S1048576x1_S1048576x32_1_0_n_n_0_1_132 x i) : (⟨S65536x32, .f32⟩ : BufTy).Contents (Elt F) → (⟨S1048576x1, .i32⟩ : BufTy).Contents (Elt F) → (⟨S1048576x32, .f32⟩ : BufTy).Contents (Elt F)),
    unary main_v72 main_v80 (broadcastInDim S1048576x1 ![0] bcast_S1048576_S1048576x1_0 : (⟨S1048576, .f32⟩ : BufTy).Contents (Elt F) → (⟨S1048576x1, .f32⟩ : BufTy).Contents (Elt F)),
    unary main_v80 main_v81 (broadcastInDim S1048576x32 ![0, 1] bcast_S1048576x1_S1048576x32_0_1 : (⟨S1048576x1, .f32⟩ : BufTy).Contents (Elt F) → (⟨S1048576x32, .f32⟩ : BufTy).Contents (Elt F)),
    binary main_v79 main_v81 main_v82 (mulf : (⟨S1048576x32, .f32⟩ : BufTy).Contents (Elt F) → (⟨S1048576x32, .f32⟩ : BufTy).Contents (Elt F) → (⟨S1048576x32, .f32⟩ : BufTy).Contents (Elt F)),
    nullary main_cst_18 (constant S_ .f32 0x00000000#32),
    unary main_cst_18 main_v83 (broadcastInDim S65536x32 ![] bcast_S_S65536x32 : (⟨S_, .f32⟩ : BufTy).Contents (Elt F) → (⟨S65536x32, .f32⟩ : BufTy).Contents (Elt F)),
    unary main_v3 main_v84 (broadcastInDim S1048576x1 ![0] bcast_S1048576_S1048576x1_0 : (⟨S1048576, .i32⟩ : BufTy).Contents (Elt F) → (⟨S1048576x1, .i32⟩ : BufTy).Contents (Elt F)),
    ternary main_v83 main_v84 main_v82 main_v85 ((fun x i u => Host.scatterAdd scatter_S65536x32_S1048576x1_S1048576x32_1_0_0_1 x i u) : (⟨S65536x32, .f32⟩ : BufTy).Contents (Elt F) → (⟨S1048576x1, .i32⟩ : BufTy).Contents (Elt F) → (⟨S1048576x32, .f32⟩ : BufTy).Contents (Elt F) → (⟨S65536x32, .f32⟩ : BufTy).Contents (Elt F)),
    nullary main_cst_19 (constant S_ .f32 0x3F800000#32),
    unary main_cst_19 main_v86 (broadcastInDim S65536 ![] bcast_S_S65536 : (⟨S_, .f32⟩ : BufTy).Contents (Elt F) → (⟨S65536, .f32⟩ : BufTy).Contents (Elt F)),
    binary main_v86 main_v56 main_v87 (Host.divf : (⟨S65536, .f32⟩ : BufTy).Contents (Elt F) → (⟨S65536, .f32⟩ : BufTy).Contents (Elt F) → (⟨S65536, .f32⟩ : BufTy).Contents (Elt F)),
    unary main_v87 main_v88 (broadcastInDim S65536x1 ![0] bcast_S65536_S65536x1_0 : (⟨S65536, .f32⟩ : BufTy).Contents (Elt F) → (⟨S65536x1, .f32⟩ : BufTy).Contents (Elt F)),
    unary main_v88 main_v89 (broadcastInDim S65536x32 ![0, 1] bcast_S65536x1_S65536x32_0_1 : (⟨S65536x1, .f32⟩ : BufTy).Contents (Elt F) → (⟨S65536x32, .f32⟩ : BufTy).Contents (Elt F)),
    binary main_v50 main_v89 main_v90 (mulf : (⟨S65536x32, .f32⟩ : BufTy).Contents (Elt F) → (⟨S65536x32, .f32⟩ : BufTy).Contents (Elt F) → (⟨S65536x32, .f32⟩ : BufTy).Contents (Elt F)),
    binary main_v85 main_v90 main_v91 (addf : (⟨S65536x32, .f32⟩ : BufTy).Contents (Elt F) → (⟨S65536x32, .f32⟩ : BufTy).Contents (Elt F) → (⟨S65536x32, .f32⟩ : BufTy).Contents (Elt F)),
    unary main_arg5 main_v92 (broadcastInDim S1x32 ![1] bcast_S32_S1x32_1 : (⟨S32, .f32⟩ : BufTy).Contents (Elt F) → (⟨S1x32, .f32⟩ : BufTy).Contents (Elt F)),
    unary main_v92 main_v93 (broadcastInDim S65536x32 ![0, 1] bcast_S1x32_S65536x32_0_1 : (⟨S1x32, .f32⟩ : BufTy).Contents (Elt F) → (⟨S65536x32, .f32⟩ : BufTy).Contents (Elt F)),
    binary main_v91 main_v93 main_v94 (addf : (⟨S65536x32, .f32⟩ : BufTy).Contents (Elt F) → (⟨S65536x32, .f32⟩ : BufTy).Contents (Elt F) → (⟨S65536x32, .f32⟩ : BufTy).Contents (Elt F)),
    TRef.nullary (TRef.of (T := ⟨S_, .f32⟩) main_call1_cst) (constant S_ .f32 0xFF800000#32),
    TRef.binary (TRef.of (T := ⟨S65536x32, .f32⟩) main_v94) (TRef.of (T := ⟨S_, .f32⟩) main_call1_cst) (TRef.of (T := ⟨S65536, .f32⟩) main_call1_v0) (fun x v => Host.reduce FloatOps.maximumf x v reducesTo_S65536x32_S65536_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S65536, .f32⟩) main_call1_v1) (broadcastInDim S65536 ![] bcast_S_S65536),
    TRef.binary (TRef.of (T := ⟨S65536, .f32⟩) main_call1_v1) (TRef.of (T := ⟨S65536, .f32⟩) main_call1_v0) (TRef.of (T := ⟨S65536, .f32⟩) main_call1_v2) maximumf,
    TRef.unary (TRef.of (T := ⟨S65536, .f32⟩) main_call1_v2) (TRef.of (T := ⟨S65536x1, .f32⟩) main_call1_v3) (broadcastInDim S65536x1 ![0] bcast_S65536_S65536x1_0),
    TRef.unary (TRef.of (T := ⟨S65536x1, .f32⟩) main_call1_v3) (TRef.of (T := ⟨S65536x32, .f32⟩) main_call1_v4) (broadcastInDim S65536x32 ![0, 1] bcast_S65536x1_S65536x32_0_1),
    TRef.binary (TRef.of (T := ⟨S65536x32, .f32⟩) main_v94) (TRef.of (T := ⟨S65536x32, .f32⟩) main_call1_v4) (TRef.of (T := ⟨S65536x32, .f32⟩) main_call1_v5) subf,
    TRef.unary (TRef.of (T := ⟨S65536x32, .f32⟩) main_call1_v5) (TRef.of (T := ⟨S65536x32, .f32⟩) main_call1_v6) Host.exp,
    TRef.nullary (TRef.of (T := ⟨S_, .f32⟩) main_call1_cst_1) (constant S_ .f32 0x00000000#32),
    TRef.binary (TRef.of (T := ⟨S65536x32, .f32⟩) main_call1_v6) (TRef.of (T := ⟨S_, .f32⟩) main_call1_cst_1) (TRef.of (T := ⟨S65536, .f32⟩) main_call1_v7) (fun x v => Host.reduceAdd x v reducesTo_S65536x32_S65536_d1 h_S_),
    TRef.unary (TRef.of (T := ⟨S65536, .f32⟩) main_call1_v7) (TRef.of (T := ⟨S65536x1, .f32⟩) main_call1_v8) (broadcastInDim S65536x1 ![0] bcast_S65536_S65536x1_0),
    TRef.unary (TRef.of (T := ⟨S65536x1, .f32⟩) main_call1_v8) (TRef.of (T := ⟨S65536x1, .f32⟩) main_call1_v9) Host.log,
    TRef.unary (TRef.of (T := ⟨S65536x1, .f32⟩) main_call1_v9) (TRef.of (T := ⟨S65536x32, .f32⟩) main_call1_v10) (broadcastInDim S65536x32 ![0, 1] bcast_S65536x1_S65536x32_0_1),
    TRef.binary (TRef.of (T := ⟨S65536x32, .f32⟩) main_call1_v5) (TRef.of (T := ⟨S65536x32, .f32⟩) main_call1_v10) (TRef.of (T := ⟨S65536x32, .f32⟩) main_v95) subf ]

/-- The edge list's two rows, and the first product. -/
abbrev opsA : List (HloOp τ sig (Elt F)) :=
  [ unary main_arg1 main_v0 ((extractStridedSlice S1x1048576 ![0, 0] · slices_S2x1048576_S1x1048576_0_0) : (⟨S2x1048576, .i32⟩ : BufTy).Contents (Elt F) → (⟨S1x1048576, .i32⟩ : BufTy).Contents (Elt F)),
    reshape main_v0 main_v1 rfl shapeCasts_S1x1048576_S1048576,
    unary main_arg1 main_v2 ((extractStridedSlice S1x1048576 ![1, 0] · slices_S2x1048576_S1x1048576_1_0) : (⟨S2x1048576, .i32⟩ : BufTy).Contents (Elt F) → (⟨S1x1048576, .i32⟩ : BufTy).Contents (Elt F)),
    reshape main_v2 main_v3 rfl shapeCasts_S1x1048576_S1048576,
    binary main_arg0 main_arg2 main_v4 ((fun l r => Host.dotGeneral dot_S65536x1024_S1024x64_S65536x64_1_0_0_1_n_n none l r) : (⟨S65536x1024, .f32⟩ : BufTy).Contents (Elt F) → (⟨S1024x64, .f32⟩ : BufTy).Contents (Elt F) → (⟨S65536x64, .f32⟩ : BufTy).Contents (Elt F)) ]

/-- The first layer: degrees, edge weights, the weighted sum over the edges, the self loops, the bias; relu. -/
abbrev opsB : List (HloOp τ sig (Elt F)) :=
  [ nullary main_cst (constant S_ .f32 0x3F800000#32),
    unary main_cst main_v5 (broadcastInDim S1048576 ![] bcast_S_S1048576 : (⟨S_, .f32⟩ : BufTy).Contents (Elt F) → (⟨S1048576, .f32⟩ : BufTy).Contents (Elt F)),
    nullary main_cst_0 (constant S_ .f32 0x00000000#32),
    unary main_cst_0 main_v6 (broadcastInDim S65536 ![] bcast_S_S65536 : (⟨S_, .f32⟩ : BufTy).Contents (Elt F) → (⟨S65536, .f32⟩ : BufTy).Contents (Elt F)),
    unary main_v3 main_v7 (broadcastInDim S1048576x1 ![0] bcast_S1048576_S1048576x1_0 : (⟨S1048576, .i32⟩ : BufTy).Contents (Elt F) → (⟨S1048576x1, .i32⟩ : BufTy).Contents (Elt F)),
    ternary main_v6 main_v7 main_v5 main_v8 ((fun x i u => Host.scatterAdd scatter_S65536_S1048576x1_S1048576_n_0_0_1 x i u) : (⟨S65536, .f32⟩ : BufTy).Contents (Elt F) → (⟨S1048576x1, .i32⟩ : BufTy).Contents (Elt F) → (⟨S1048576, .f32⟩ : BufTy).Contents (Elt F) → (⟨S65536, .f32⟩ : BufTy).Contents (Elt F)),
    nullary main_cst_1 (constant S_ .f32 0x3F800000#32),
    unary main_cst_1 main_v9 (broadcastInDim S65536 ![] bcast_S_S65536 : (⟨S_, .f32⟩ : BufTy).Contents (Elt F) → (⟨S65536, .f32⟩ : BufTy).Contents (Elt F)),
    binary main_v8 main_v9 main_v10 (addf : (⟨S65536, .f32⟩ : BufTy).Contents (Elt F) → (⟨S65536, .f32⟩ : BufTy).Contents (Elt F) → (⟨S65536, .f32⟩ : BufTy).Contents (Elt F)),
    unary main_v10 main_v11 (Host.rsqrt : (⟨S65536, .f32⟩ : BufTy).Contents (Elt F) → (⟨S65536, .f32⟩ : BufTy).Contents (Elt F)),
    nullary main_c (constantI S_ 32 0#32),
    unary main_c main_v12 (broadcastInDim S1048576 ![] bcast_S_S1048576 : (⟨S_, .i32⟩ : BufTy).Contents (Elt F) → (⟨S1048576, .i32⟩ : BufTy).Contents (Elt F)),
    binary main_v1 main_v12 main_v13 (cmpi .slt : (⟨S1048576, .i32⟩ : BufTy).Contents (Elt F) → (⟨S1048576, .i32⟩ : BufTy).Contents (Elt F) → (⟨S1048576, .i1⟩ : BufTy).Contents (Elt F)),
    nullary main_c_2 (constantI S_ 32 65536#32),
    unary main_c_2 main_v14 (broadcastInDim S1048576 ![] bcast_S_S1048576 : (⟨S_, .i32⟩ : BufTy).Contents (Elt F) → (⟨S1048576, .i32⟩ : BufTy).Contents (Elt F)),
    binary main_v1 main_v14 main_v15 (addi : (⟨S1048576, .i32⟩ : BufTy).Contents (Elt F) → (⟨S1048576, .i32⟩ : BufTy).Contents (Elt F) → (⟨S1048576, .i32⟩ : BufTy).Contents (Elt F)),
    ternary main_v13 main_v15 main_v1 main_v16 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v16 main_v17 (broadcastInDim S1048576x1 ![0] bcast_S1048576_S1048576x1_0 : (⟨S1048576, .i32⟩ : BufTy).Contents (Elt F) → (⟨S1048576x1, .i32⟩ : BufTy).Contents (Elt F)),
    binary main_v11 main_v17 main_v18 ((fun x i => Host.gather gather_S65536_S1048576x1_S1048576_n_0_n_n_0_1_1 x i) : (⟨S65536, .f32⟩ : BufTy).Contents (Elt F) → (⟨S1048576x1, .i32⟩ : BufTy).Contents (Elt F) → (⟨S1048576, .f32⟩ : BufTy).Contents (Elt F)),
    nullary main_c_3 (constantI S_ 32 0#32),
    unary main_c_3 main_v19 (broadcastInDim S1048576 ![] bcast_S_S1048576 : (⟨S_, .i32⟩ : BufTy).Contents (Elt F) → (⟨S1048576, .i32⟩ : BufTy).Contents (Elt F)),
    binary main_v3 main_v19 main_v20 (cmpi .slt : (⟨S1048576, .i32⟩ : BufTy).Contents (Elt F) → (⟨S1048576, .i32⟩ : BufTy).Contents (Elt F) → (⟨S1048576, .i1⟩ : BufTy).Contents (Elt F)),
    nullary main_c_4 (constantI S_ 32 65536#32),
    unary main_c_4 main_v21 (broadcastInDim S1048576 ![] bcast_S_S1048576 : (⟨S_, .i32⟩ : BufTy).Contents (Elt F) → (⟨S1048576, .i32⟩ : BufTy).Contents (Elt F)),
    binary main_v3 main_v21 main_v22 (addi : (⟨S1048576, .i32⟩ : BufTy).Contents (Elt F) → (⟨S1048576, .i32⟩ : BufTy).Contents (Elt F) → (⟨S1048576, .i32⟩ : BufTy).Contents (Elt F)),
    ternary main_v20 main_v22 main_v3 main_v23 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v23 main_v24 (broadcastInDim S1048576x1 ![0] bcast_S1048576_S1048576x1_0 : (⟨S1048576, .i32⟩ : BufTy).Contents (Elt F) → (⟨S1048576x1, .i32⟩ : BufTy).Contents (Elt F)),
    binary main_v11 main_v24 main_v25 ((fun x i => Host.gather gather_S65536_S1048576x1_S1048576_n_0_n_n_0_1_1 x i) : (⟨S65536, .f32⟩ : BufTy).Contents (Elt F) → (⟨S1048576x1, .i32⟩ : BufTy).Contents (Elt F) → (⟨S1048576, .f32⟩ : BufTy).Contents (Elt F)),
    binary main_v18 main_v25 main_v26 (mulf : (⟨S1048576, .f32⟩ : BufTy).Contents (Elt F) → (⟨S1048576, .f32⟩ : BufTy).Contents (Elt F) → (⟨S1048576, .f32⟩ : BufTy).Contents (Elt F)),
    nullary main_c_5 (constantI S_ 32 0#32),
    unary main_c_5 main_v27 (broadcastInDim S1048576 ![] bcast_S_S1048576 : (⟨S_, .i32⟩ : BufTy).Contents (Elt F) → (⟨S1048576, .i32⟩ : BufTy).Contents (Elt F)),
    binary main_v1 main_v27 main_v28 (cmpi .slt : (⟨S1048576, .i32⟩ : BufTy).Contents (Elt F) → (⟨S1048576, .i32⟩ : BufTy).Contents (Elt F) → (⟨S1048576, .i1⟩ : BufTy).Contents (Elt F)),
    nullary main_c_6 (constantI S_ 32 65536#32),
    unary main_c_6 main_v29 (broadcastInDim S1048576 ![] bcast_S_S1048576 : (⟨S_, .i32⟩ : BufTy).Contents (Elt F) → (⟨S1048576, .i32⟩ : BufTy).Contents (Elt F)),
    binary main_v1 main_v29 main_v30 (addi : (⟨S1048576, .i32⟩ : BufTy).Contents (Elt F) → (⟨S1048576, .i32⟩ : BufTy).Contents (Elt F) → (⟨S1048576, .i32⟩ : BufTy).Contents (Elt F)),
    ternary main_v28 main_v30 main_v1 main_v31 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v31 main_v32 (broadcastInDim S1048576x1 ![0] bcast_S1048576_S1048576x1_0 : (⟨S1048576, .i32⟩ : BufTy).Contents (Elt F) → (⟨S1048576x1, .i32⟩ : BufTy).Contents (Elt F)),
    binary main_v4 main_v32 main_v33 ((fun x i => Host.gather gather_S65536x64_S1048576x1_S1048576x64_1_0_n_n_0_1_164 x i) : (⟨S65536x64, .f32⟩ : BufTy).Contents (Elt F) → (⟨S1048576x1, .i32⟩ : BufTy).Contents (Elt F) → (⟨S1048576x64, .f32⟩ : BufTy).Contents (Elt F)),
    unary main_v26 main_v34 (broadcastInDim S1048576x1 ![0] bcast_S1048576_S1048576x1_0 : (⟨S1048576, .f32⟩ : BufTy).Contents (Elt F) → (⟨S1048576x1, .f32⟩ : BufTy).Contents (Elt F)),
    unary main_v34 main_v35 (broadcastInDim S1048576x64 ![0, 1] bcast_S1048576x1_S1048576x64_0_1 : (⟨S1048576x1, .f32⟩ : BufTy).Contents (Elt F) → (⟨S1048576x64, .f32⟩ : BufTy).Contents (Elt F)),
    binary main_v33 main_v35 main_v36 (mulf : (⟨S1048576x64, .f32⟩ : BufTy).Contents (Elt F) → (⟨S1048576x64, .f32⟩ : BufTy).Contents (Elt F) → (⟨S1048576x64, .f32⟩ : BufTy).Contents (Elt F)),
    nullary main_cst_7 (constant S_ .f32 0x00000000#32),
    unary main_cst_7 main_v37 (broadcastInDim S65536x64 ![] bcast_S_S65536x64 : (⟨S_, .f32⟩ : BufTy).Contents (Elt F) → (⟨S65536x64, .f32⟩ : BufTy).Contents (Elt F)),
    unary main_v3 main_v38 (broadcastInDim S1048576x1 ![0] bcast_S1048576_S1048576x1_0 : (⟨S1048576, .i32⟩ : BufTy).Contents (Elt F) → (⟨S1048576x1, .i32⟩ : BufTy).Contents (Elt F)),
    ternary main_v37 main_v38 main_v36 main_v39 ((fun x i u => Host.scatterAdd scatter_S65536x64_S1048576x1_S1048576x64_1_0_0_1 x i u) : (⟨S65536x64, .f32⟩ : BufTy).Contents (Elt F) → (⟨S1048576x1, .i32⟩ : BufTy).Contents (Elt F) → (⟨S1048576x64, .f32⟩ : BufTy).Contents (Elt F) → (⟨S65536x64, .f32⟩ : BufTy).Contents (Elt F)),
    nullary main_cst_8 (constant S_ .f32 0x3F800000#32),
    unary main_cst_8 main_v40 (broadcastInDim S65536 ![] bcast_S_S65536 : (⟨S_, .f32⟩ : BufTy).Contents (Elt F) → (⟨S65536, .f32⟩ : BufTy).Contents (Elt F)),
    binary main_v40 main_v10 main_v41 (Host.divf : (⟨S65536, .f32⟩ : BufTy).Contents (Elt F) → (⟨S65536, .f32⟩ : BufTy).Contents (Elt F) → (⟨S65536, .f32⟩ : BufTy).Contents (Elt F)),
    unary main_v41 main_v42 (broadcastInDim S65536x1 ![0] bcast_S65536_S65536x1_0 : (⟨S65536, .f32⟩ : BufTy).Contents (Elt F) → (⟨S65536x1, .f32⟩ : BufTy).Contents (Elt F)),
    unary main_v42 main_v43 (broadcastInDim S65536x64 ![0, 1] bcast_S65536x1_S65536x64_0_1 : (⟨S65536x1, .f32⟩ : BufTy).Contents (Elt F) → (⟨S65536x64, .f32⟩ : BufTy).Contents (Elt F)),
    binary main_v4 main_v43 main_v44 (mulf : (⟨S65536x64, .f32⟩ : BufTy).Contents (Elt F) → (⟨S65536x64, .f32⟩ : BufTy).Contents (Elt F) → (⟨S65536x64, .f32⟩ : BufTy).Contents (Elt F)),
    binary main_v39 main_v44 main_v45 (addf : (⟨S65536x64, .f32⟩ : BufTy).Contents (Elt F) → (⟨S65536x64, .f32⟩ : BufTy).Contents (Elt F) → (⟨S65536x64, .f32⟩ : BufTy).Contents (Elt F)),
    unary main_arg3 main_v46 (broadcastInDim S1x64 ![1] bcast_S64_S1x64_1 : (⟨S64, .f32⟩ : BufTy).Contents (Elt F) → (⟨S1x64, .f32⟩ : BufTy).Contents (Elt F)),
    unary main_v46 main_v47 (broadcastInDim S65536x64 ![0, 1] bcast_S1x64_S65536x64_0_1 : (⟨S1x64, .f32⟩ : BufTy).Contents (Elt F) → (⟨S65536x64, .f32⟩ : BufTy).Contents (Elt F)),
    binary main_v45 main_v47 main_v48 (addf : (⟨S65536x64, .f32⟩ : BufTy).Contents (Elt F) → (⟨S65536x64, .f32⟩ : BufTy).Contents (Elt F) → (⟨S65536x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S65536x64, .f32⟩) main_call0_v0) (broadcastInDim S65536x64 ![] bcast_S_S65536x64),
    TRef.binary (TRef.of (T := ⟨S65536x64, .f32⟩) main_v48) (TRef.of (T := ⟨S65536x64, .f32⟩) main_call0_v0) (TRef.of (T := ⟨S65536x64, .f32⟩) main_v49) maximumf ]

/-- The second product and the second layer (degrees and edge weights computed again). -/
abbrev opsC : List (HloOp τ sig (Elt F)) :=
  [ binary main_v49 main_arg4 main_v50 ((fun l r => Host.dotGeneral dot_S65536x64_S64x32_S65536x32_1_0_0_1_n_n none l r) : (⟨S65536x64, .f32⟩ : BufTy).Contents (Elt F) → (⟨S64x32, .f32⟩ : BufTy).Contents (Elt F) → (⟨S65536x32, .f32⟩ : BufTy).Contents (Elt F)),
    nullary main_cst_9 (constant S_ .f32 0x3F800000#32),
    unary main_cst_9 main_v51 (broadcastInDim S1048576 ![] bcast_S_S1048576 : (⟨S_, .f32⟩ : BufTy).Contents (Elt F) → (⟨S1048576, .f32⟩ : BufTy).Contents (Elt F)),
    nullary main_cst_10 (constant S_ .f32 0x00000000#32),
    unary main_cst_10 main_v52 (broadcastInDim S65536 ![] bcast_S_S65536 : (⟨S_, .f32⟩ : BufTy).Contents (Elt F) → (⟨S65536, .f32⟩ : BufTy).Contents (Elt F)),
    unary main_v3 main_v53 (broadcastInDim S1048576x1 ![0] bcast_S1048576_S1048576x1_0 : (⟨S1048576, .i32⟩ : BufTy).Contents (Elt F) → (⟨S1048576x1, .i32⟩ : BufTy).Contents (Elt F)),
    ternary main_v52 main_v53 main_v51 main_v54 ((fun x i u => Host.scatterAdd scatter_S65536_S1048576x1_S1048576_n_0_0_1 x i u) : (⟨S65536, .f32⟩ : BufTy).Contents (Elt F) → (⟨S1048576x1, .i32⟩ : BufTy).Contents (Elt F) → (⟨S1048576, .f32⟩ : BufTy).Contents (Elt F) → (⟨S65536, .f32⟩ : BufTy).Contents (Elt F)),
    nullary main_cst_11 (constant S_ .f32 0x3F800000#32),
    unary main_cst_11 main_v55 (broadcastInDim S65536 ![] bcast_S_S65536 : (⟨S_, .f32⟩ : BufTy).Contents (Elt F) → (⟨S65536, .f32⟩ : BufTy).Contents (Elt F)),
    binary main_v54 main_v55 main_v56 (addf : (⟨S65536, .f32⟩ : BufTy).Contents (Elt F) → (⟨S65536, .f32⟩ : BufTy).Contents (Elt F) → (⟨S65536, .f32⟩ : BufTy).Contents (Elt F)),
    unary main_v56 main_v57 (Host.rsqrt : (⟨S65536, .f32⟩ : BufTy).Contents (Elt F) → (⟨S65536, .f32⟩ : BufTy).Contents (Elt F)),
    nullary main_c_12 (constantI S_ 32 0#32),
    unary main_c_12 main_v58 (broadcastInDim S1048576 ![] bcast_S_S1048576 : (⟨S_, .i32⟩ : BufTy).Contents (Elt F) → (⟨S1048576, .i32⟩ : BufTy).Contents (Elt F)),
    binary main_v1 main_v58 main_v59 (cmpi .slt : (⟨S1048576, .i32⟩ : BufTy).Contents (Elt F) → (⟨S1048576, .i32⟩ : BufTy).Contents (Elt F) → (⟨S1048576, .i1⟩ : BufTy).Contents (Elt F)),
    nullary main_c_13 (constantI S_ 32 65536#32),
    unary main_c_13 main_v60 (broadcastInDim S1048576 ![] bcast_S_S1048576 : (⟨S_, .i32⟩ : BufTy).Contents (Elt F) → (⟨S1048576, .i32⟩ : BufTy).Contents (Elt F)),
    binary main_v1 main_v60 main_v61 (addi : (⟨S1048576, .i32⟩ : BufTy).Contents (Elt F) → (⟨S1048576, .i32⟩ : BufTy).Contents (Elt F) → (⟨S1048576, .i32⟩ : BufTy).Contents (Elt F)),
    ternary main_v59 main_v61 main_v1 main_v62 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v62 main_v63 (broadcastInDim S1048576x1 ![0] bcast_S1048576_S1048576x1_0 : (⟨S1048576, .i32⟩ : BufTy).Contents (Elt F) → (⟨S1048576x1, .i32⟩ : BufTy).Contents (Elt F)),
    binary main_v57 main_v63 main_v64 ((fun x i => Host.gather gather_S65536_S1048576x1_S1048576_n_0_n_n_0_1_1 x i) : (⟨S65536, .f32⟩ : BufTy).Contents (Elt F) → (⟨S1048576x1, .i32⟩ : BufTy).Contents (Elt F) → (⟨S1048576, .f32⟩ : BufTy).Contents (Elt F)),
    nullary main_c_14 (constantI S_ 32 0#32),
    unary main_c_14 main_v65 (broadcastInDim S1048576 ![] bcast_S_S1048576 : (⟨S_, .i32⟩ : BufTy).Contents (Elt F) → (⟨S1048576, .i32⟩ : BufTy).Contents (Elt F)),
    binary main_v3 main_v65 main_v66 (cmpi .slt : (⟨S1048576, .i32⟩ : BufTy).Contents (Elt F) → (⟨S1048576, .i32⟩ : BufTy).Contents (Elt F) → (⟨S1048576, .i1⟩ : BufTy).Contents (Elt F)),
    nullary main_c_15 (constantI S_ 32 65536#32),
    unary main_c_15 main_v67 (broadcastInDim S1048576 ![] bcast_S_S1048576 : (⟨S_, .i32⟩ : BufTy).Contents (Elt F) → (⟨S1048576, .i32⟩ : BufTy).Contents (Elt F)),
    binary main_v3 main_v67 main_v68 (addi : (⟨S1048576, .i32⟩ : BufTy).Contents (Elt F) → (⟨S1048576, .i32⟩ : BufTy).Contents (Elt F) → (⟨S1048576, .i32⟩ : BufTy).Contents (Elt F)),
    ternary main_v66 main_v68 main_v3 main_v69 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v69 main_v70 (broadcastInDim S1048576x1 ![0] bcast_S1048576_S1048576x1_0 : (⟨S1048576, .i32⟩ : BufTy).Contents (Elt F) → (⟨S1048576x1, .i32⟩ : BufTy).Contents (Elt F)),
    binary main_v57 main_v70 main_v71 ((fun x i => Host.gather gather_S65536_S1048576x1_S1048576_n_0_n_n_0_1_1 x i) : (⟨S65536, .f32⟩ : BufTy).Contents (Elt F) → (⟨S1048576x1, .i32⟩ : BufTy).Contents (Elt F) → (⟨S1048576, .f32⟩ : BufTy).Contents (Elt F)),
    binary main_v64 main_v71 main_v72 (mulf : (⟨S1048576, .f32⟩ : BufTy).Contents (Elt F) → (⟨S1048576, .f32⟩ : BufTy).Contents (Elt F) → (⟨S1048576, .f32⟩ : BufTy).Contents (Elt F)),
    nullary main_c_16 (constantI S_ 32 0#32),
    unary main_c_16 main_v73 (broadcastInDim S1048576 ![] bcast_S_S1048576 : (⟨S_, .i32⟩ : BufTy).Contents (Elt F) → (⟨S1048576, .i32⟩ : BufTy).Contents (Elt F)),
    binary main_v1 main_v73 main_v74 (cmpi .slt : (⟨S1048576, .i32⟩ : BufTy).Contents (Elt F) → (⟨S1048576, .i32⟩ : BufTy).Contents (Elt F) → (⟨S1048576, .i1⟩ : BufTy).Contents (Elt F)),
    nullary main_c_17 (constantI S_ 32 65536#32),
    unary main_c_17 main_v75 (broadcastInDim S1048576 ![] bcast_S_S1048576 : (⟨S_, .i32⟩ : BufTy).Contents (Elt F) → (⟨S1048576, .i32⟩ : BufTy).Contents (Elt F)),
    binary main_v1 main_v75 main_v76 (addi : (⟨S1048576, .i32⟩ : BufTy).Contents (Elt F) → (⟨S1048576, .i32⟩ : BufTy).Contents (Elt F) → (⟨S1048576, .i32⟩ : BufTy).Contents (Elt F)),
    ternary main_v74 main_v76 main_v1 main_v77 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v77 main_v78 (broadcastInDim S1048576x1 ![0] bcast_S1048576_S1048576x1_0 : (⟨S1048576, .i32⟩ : BufTy).Contents (Elt F) → (⟨S1048576x1, .i32⟩ : BufTy).Contents (Elt F)),
    binary main_v50 main_v78 main_v79 ((fun x i => Host.gather gather_S65536x32_S1048576x1_S1048576x32_1_0_n_n_0_1_132 x i) : (⟨S65536x32, .f32⟩ : BufTy).Contents (Elt F) → (⟨S1048576x1, .i32⟩ : BufTy).Contents (Elt F) → (⟨S1048576x32, .f32⟩ : BufTy).Contents (Elt F)),
    unary main_v72 main_v80 (broadcastInDim S1048576x1 ![0] bcast_S1048576_S1048576x1_0 : (⟨S1048576, .f32⟩ : BufTy).Contents (Elt F) → (⟨S1048576x1, .f32⟩ : BufTy).Contents (Elt F)),
    unary main_v80 main_v81 (broadcastInDim S1048576x32 ![0, 1] bcast_S1048576x1_S1048576x32_0_1 : (⟨S1048576x1, .f32⟩ : BufTy).Contents (Elt F) → (⟨S1048576x32, .f32⟩ : BufTy).Contents (Elt F)),
    binary main_v79 main_v81 main_v82 (mulf : (⟨S1048576x32, .f32⟩ : BufTy).Contents (Elt F) → (⟨S1048576x32, .f32⟩ : BufTy).Contents (Elt F) → (⟨S1048576x32, .f32⟩ : BufTy).Contents (Elt F)),
    nullary main_cst_18 (constant S_ .f32 0x00000000#32),
    unary main_cst_18 main_v83 (broadcastInDim S65536x32 ![] bcast_S_S65536x32 : (⟨S_, .f32⟩ : BufTy).Contents (Elt F) → (⟨S65536x32, .f32⟩ : BufTy).Contents (Elt F)),
    unary main_v3 main_v84 (broadcastInDim S1048576x1 ![0] bcast_S1048576_S1048576x1_0 : (⟨S1048576, .i32⟩ : BufTy).Contents (Elt F) → (⟨S1048576x1, .i32⟩ : BufTy).Contents (Elt F)),
    ternary main_v83 main_v84 main_v82 main_v85 ((fun x i u => Host.scatterAdd scatter_S65536x32_S1048576x1_S1048576x32_1_0_0_1 x i u) : (⟨S65536x32, .f32⟩ : BufTy).Contents (Elt F) → (⟨S1048576x1, .i32⟩ : BufTy).Contents (Elt F) → (⟨S1048576x32, .f32⟩ : BufTy).Contents (Elt F) → (⟨S65536x32, .f32⟩ : BufTy).Contents (Elt F)),
    nullary main_cst_19 (constant S_ .f32 0x3F800000#32),
    unary main_cst_19 main_v86 (broadcastInDim S65536 ![] bcast_S_S65536 : (⟨S_, .f32⟩ : BufTy).Contents (Elt F) → (⟨S65536, .f32⟩ : BufTy).Contents (Elt F)),
    binary main_v86 main_v56 main_v87 (Host.divf : (⟨S65536, .f32⟩ : BufTy).Contents (Elt F) → (⟨S65536, .f32⟩ : BufTy).Contents (Elt F) → (⟨S65536, .f32⟩ : BufTy).Contents (Elt F)),
    unary main_v87 main_v88 (broadcastInDim S65536x1 ![0] bcast_S65536_S65536x1_0 : (⟨S65536, .f32⟩ : BufTy).Contents (Elt F) → (⟨S65536x1, .f32⟩ : BufTy).Contents (Elt F)),
    unary main_v88 main_v89 (broadcastInDim S65536x32 ![0, 1] bcast_S65536x1_S65536x32_0_1 : (⟨S65536x1, .f32⟩ : BufTy).Contents (Elt F) → (⟨S65536x32, .f32⟩ : BufTy).Contents (Elt F)),
    binary main_v50 main_v89 main_v90 (mulf : (⟨S65536x32, .f32⟩ : BufTy).Contents (Elt F) → (⟨S65536x32, .f32⟩ : BufTy).Contents (Elt F) → (⟨S65536x32, .f32⟩ : BufTy).Contents (Elt F)),
    binary main_v85 main_v90 main_v91 (addf : (⟨S65536x32, .f32⟩ : BufTy).Contents (Elt F) → (⟨S65536x32, .f32⟩ : BufTy).Contents (Elt F) → (⟨S65536x32, .f32⟩ : BufTy).Contents (Elt F)),
    unary main_arg5 main_v92 (broadcastInDim S1x32 ![1] bcast_S32_S1x32_1 : (⟨S32, .f32⟩ : BufTy).Contents (Elt F) → (⟨S1x32, .f32⟩ : BufTy).Contents (Elt F)),
    unary main_v92 main_v93 (broadcastInDim S65536x32 ![0, 1] bcast_S1x32_S65536x32_0_1 : (⟨S1x32, .f32⟩ : BufTy).Contents (Elt F) → (⟨S65536x32, .f32⟩ : BufTy).Contents (Elt F)),
    binary main_v91 main_v93 main_v94 (addf : (⟨S65536x32, .f32⟩ : BufTy).Contents (Elt F) → (⟨S65536x32, .f32⟩ : BufTy).Contents (Elt F) → (⟨S65536x32, .f32⟩ : BufTy).Contents (Elt F)) ]

/-- log_softmax along the rows. -/
abbrev opsD : List (HloOp τ sig (Elt F)) :=
  [ TRef.nullary (TRef.of (T := ⟨S_, .f32⟩) main_call1_cst) (constant S_ .f32 0xFF800000#32),
    TRef.binary (TRef.of (T := ⟨S65536x32, .f32⟩) main_v94) (TRef.of (T := ⟨S_, .f32⟩) main_call1_cst) (TRef.of (T := ⟨S65536, .f32⟩) main_call1_v0) (fun x v => Host.reduce FloatOps.maximumf x v reducesTo_S65536x32_S65536_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S65536, .f32⟩) main_call1_v1) (broadcastInDim S65536 ![] bcast_S_S65536),
    TRef.binary (TRef.of (T := ⟨S65536, .f32⟩) main_call1_v1) (TRef.of (T := ⟨S65536, .f32⟩) main_call1_v0) (TRef.of (T := ⟨S65536, .f32⟩) main_call1_v2) maximumf,
    TRef.unary (TRef.of (T := ⟨S65536, .f32⟩) main_call1_v2) (TRef.of (T := ⟨S65536x1, .f32⟩) main_call1_v3) (broadcastInDim S65536x1 ![0] bcast_S65536_S65536x1_0),
    TRef.unary (TRef.of (T := ⟨S65536x1, .f32⟩) main_call1_v3) (TRef.of (T := ⟨S65536x32, .f32⟩) main_call1_v4) (broadcastInDim S65536x32 ![0, 1] bcast_S65536x1_S65536x32_0_1),
    TRef.binary (TRef.of (T := ⟨S65536x32, .f32⟩) main_v94) (TRef.of (T := ⟨S65536x32, .f32⟩) main_call1_v4) (TRef.of (T := ⟨S65536x32, .f32⟩) main_call1_v5) subf,
    TRef.unary (TRef.of (T := ⟨S65536x32, .f32⟩) main_call1_v5) (TRef.of (T := ⟨S65536x32, .f32⟩) main_call1_v6) Host.exp,
    TRef.nullary (TRef.of (T := ⟨S_, .f32⟩) main_call1_cst_1) (constant S_ .f32 0x00000000#32),
    TRef.binary (TRef.of (T := ⟨S65536x32, .f32⟩) main_call1_v6) (TRef.of (T := ⟨S_, .f32⟩) main_call1_cst_1) (TRef.of (T := ⟨S65536, .f32⟩) main_call1_v7) (fun x v => Host.reduceAdd x v reducesTo_S65536x32_S65536_d1 h_S_),
    TRef.unary (TRef.of (T := ⟨S65536, .f32⟩) main_call1_v7) (TRef.of (T := ⟨S65536x1, .f32⟩) main_call1_v8) (broadcastInDim S65536x1 ![0] bcast_S65536_S65536x1_0),
    TRef.unary (TRef.of (T := ⟨S65536x1, .f32⟩) main_call1_v8) (TRef.of (T := ⟨S65536x1, .f32⟩) main_call1_v9) Host.log,
    TRef.unary (TRef.of (T := ⟨S65536x1, .f32⟩) main_call1_v9) (TRef.of (T := ⟨S65536x32, .f32⟩) main_call1_v10) (broadcastInDim S65536x32 ![0, 1] bcast_S65536x1_S65536x32_0_1),
    TRef.binary (TRef.of (T := ⟨S65536x32, .f32⟩) main_call1_v5) (TRef.of (T := ⟨S65536x32, .f32⟩) main_call1_v10) (TRef.of (T := ⟨S65536x32, .f32⟩) main_v95) subf ]

set_option maxRecDepth 8192 in
set_option maxHeartbeats 4000000 in
theorem main_eq (c : Dev nD) : main (F := F) c = seq ops := rfl

/-- The line is its four stretches, one after the other. -/
theorem ops_split : (ops : List (HloOp τ sig (Elt F))) = opsA ++ (opsB ++ (opsC ++ opsD)) := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Every weakly fair execution of the reference terminates, nothing faulting, with every buffer at the fold of the
    line's operations over the launch memory. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.Line

end
-- ==== Proof.RefStretches.lean ====
/-
  The reference program's four stretches, each read as a stage of the network, and the whole line read as the network.

  From any buffer contents V: the first stretch leaves the edge list's two rows and the product of the first two float
  arguments; the second leaves relu of the first layer of whatever the first product's buffer holds (computing the
  degrees and weights from the rows on its way); the third leaves the second layer of the product of the hidden
  features with the second weight matrix (computing the degrees and weights again, to the same values); the fourth
  leaves log_softmax. A buffer a stretch does not write keeps its contents. On the extended reals the host's
  dot_general is the entry-wise sum of products, so the whole line leaves the network's value of the arguments.
-/
import proofs.«178939_j33758442947404_1_alg».proof.Proof.RefRun
import proofs.«178939_j33758442947404_1_alg».proof.Proof.Stages
import proofs.«178939_j33758442947404_1_alg».proof.Proof.LibHostWalk
import Idealize.ShloMosaic.Lib.Pipeline.Frame

set_option maxRecDepth 16384

noncomputable section

namespace Cert.ReferenceIdeal.Stretches

open Cert.ReferenceIdeal Cert.ReferenceIdeal.Facts₀ Cert.ReferenceIdeal.Facts Cert.ReferenceIdeal.Line
open Idealize.ShloMosaic Idealize.ShloMosaic.TcCoe Idealize.ShloMosaic.StableHlo
open Cert.Gcn

variable (V : Valuation τ sig (Elt Ideal))

/-! ## The first stretch -/

theorem sources : after (opsA (F := Ideal)) V (Proc.devRef .tc main_v1) = src (V (Proc.devRef .tc main_arg1)) := by
  walk_back [opsA]; rfl
theorem targets : after (opsA (F := Ideal)) V (Proc.devRef .tc main_v3) = dst (V (Proc.devRef .tc main_arg1)) := by
  walk_back [opsA]; rfl
theorem first_product : after (opsA (F := Ideal)) V (Proc.devRef .tc main_v4)
    = Host.dotGeneral (F := Ideal) (φ₁ := .f32) (φ₂ := .f32) dot_S65536x1024_S1024x64_S65536x64_1_0_0_1_n_n none (V (Proc.devRef .tc main_arg0)) (V (Proc.devRef .tc main_arg2)) := by
  walk_back [opsA] <;> rfl
theorem keepsA_arg3 : after (opsA (F := Ideal)) V (Proc.devRef .tc main_arg3) = V (Proc.devRef .tc main_arg3) := by walk_back [opsA]
theorem keepsA_arg4 : after (opsA (F := Ideal)) V (Proc.devRef .tc main_arg4) = V (Proc.devRef .tc main_arg4) := by walk_back [opsA]
theorem keepsA_arg5 : after (opsA (F := Ideal)) V (Proc.devRef .tc main_arg5) = V (Proc.devRef .tc main_arg5) := by walk_back [opsA]

/-! ## The second stretch -/

theorem hidden_layer : after (opsB (F := Ideal)) V (Proc.devRef .tc main_v49)
    = relu64 (layer64 (V (Proc.devRef .tc main_v4)) (V (Proc.devRef .tc main_v1)) (V (Proc.devRef .tc main_v3))
        (edgeWeight (V (Proc.devRef .tc main_v1)) (V (Proc.devRef .tc main_v3))) (selfWeight (V (Proc.devRef .tc main_v3)))
        (V (Proc.devRef .tc main_arg3))) := by
  walk_back [opsB]; rfl
theorem keepsB_v1 : after (opsB (F := Ideal)) V (Proc.devRef .tc main_v1) = V (Proc.devRef .tc main_v1) := by walk_back [opsB]
theorem keepsB_v3 : after (opsB (F := Ideal)) V (Proc.devRef .tc main_v3) = V (Proc.devRef .tc main_v3) := by walk_back [opsB]
theorem keepsB_arg4 : after (opsB (F := Ideal)) V (Proc.devRef .tc main_arg4) = V (Proc.devRef .tc main_arg4) := by walk_back [opsB]
theorem keepsB_arg5 : after (opsB (F := Ideal)) V (Proc.devRef .tc main_arg5) = V (Proc.devRef .tc main_arg5) := by walk_back [opsB]

/-! ## The third stretch -/

theorem second_layer : after (opsC (F := Ideal)) V (Proc.devRef .tc main_v94)
    = layer32 (Host.dotGeneral (F := Ideal) (φ₁ := .f32) (φ₂ := .f32) dot_S65536x64_S64x32_S65536x32_1_0_0_1_n_n none (V (Proc.devRef .tc main_v49)) (V (Proc.devRef .tc main_arg4)))
        (V (Proc.devRef .tc main_v1)) (V (Proc.devRef .tc main_v3))
        (edgeWeight (V (Proc.devRef .tc main_v1)) (V (Proc.devRef .tc main_v3))) (selfWeight (V (Proc.devRef .tc main_v3)))
        (V (Proc.devRef .tc main_arg5)) := by
  walk_back [opsC]; rfl

/-! ## The fourth stretch -/

theorem log_softmax_rows : after (opsD (F := Ideal)) V (Proc.devRef .tc main_v95) = logSoftmax (V (Proc.devRef .tc main_v94)) := by
  walk_back [opsD]; rfl

/-! ## The whole line -/

theorem plain1 : Cert.PlainDot.IsPlain dot_S65536x1024_S1024x64_S65536x64_1_0_0_1_n_n := ⟨rfl, rfl, rfl, rfl, rfl, rfl⟩
theorem plain2 : Cert.PlainDot.IsPlain dot_S65536x64_S64x32_S65536x32_1_0_0_1_n_n := ⟨rfl, rfl, rfl, rfl, rfl, rfl⟩

/-- The line leaves the network's value of the arguments in the result buffer. -/
theorem line_value : after (ops (F := Ideal)) V (Proc.devRef .tc main_v95)
    = network (V (Proc.devRef .tc main_arg0)) (V (Proc.devRef .tc main_arg1)) (V (Proc.devRef .tc main_arg2))
        (V (Proc.devRef .tc main_arg3)) (V (Proc.devRef .tc main_arg4)) (V (Proc.devRef .tc main_arg5)) := by
  rw [ops_split, StableHlo.after_append, StableHlo.after_append, StableHlo.after_append, log_softmax_rows, second_layer,
    keepsB_v1, keepsB_v3, keepsB_arg4, keepsB_arg5, hidden_layer, sources, targets, first_product, keepsA_arg3, keepsA_arg4,
    keepsA_arg5, Cert.Product.dotGeneral_eq plain1, Cert.Product.dotGeneral_eq plain2]
  rfl

end Cert.ReferenceIdeal.Stretches

end
-- ==== Proof.RefKept.lean ====
/-
  No operation of the reference's line writes an argument: each argument's buffer holds at the end what it held at the
  start, whatever the buffers held.
-/
import proofs.«178939_j33758442947404_1_alg».proof.Proof.RefRun
import proofs.«178939_j33758442947404_1_alg».proof.Proof.LibHostWalk
import Idealize.ShloMosaic.PureOps.Ideal

set_option maxRecDepth 16384

noncomputable section

namespace Cert.ReferenceIdeal.Kept

open Cert.ReferenceIdeal Cert.ReferenceIdeal.Line
open Idealize.ShloMosaic Idealize.ShloMosaic.TcCoe Idealize.ShloMosaic.StableHlo

variable (V : Valuation τ sig (Elt Ideal))

theorem arg0 : after (ops (F := Ideal)) V (Proc.devRef .tc main_arg0) = V (Proc.devRef .tc main_arg0) := by walk_back [ops]
theorem arg1 : after (ops (F := Ideal)) V (Proc.devRef .tc main_arg1) = V (Proc.devRef .tc main_arg1) := by walk_back [ops]
theorem arg2 : after (ops (F := Ideal)) V (Proc.devRef .tc main_arg2) = V (Proc.devRef .tc main_arg2) := by walk_back [ops]
theorem arg3 : after (ops (F := Ideal)) V (Proc.devRef .tc main_arg3) = V (Proc.devRef .tc main_arg3) := by walk_back [ops]
theorem arg4 : after (ops (F := Ideal)) V (Proc.devRef .tc main_arg4) = V (Proc.devRef .tc main_arg4) := by walk_back [ops]
theorem arg5 : after (ops (F := Ideal)) V (Proc.devRef .tc main_arg5) = V (Proc.devRef .tc main_arg5) := by walk_back [ops]

end Cert.ReferenceIdeal.Kept

end
-- ==== Proof.lean ====
/-
  A two-layer graph convolution network (GCNConv, relu, GCNConv, log_softmax over the rows) on 65536 nodes and 1048576
  edges, computed two ways.

  The kernel program computes the two matrix products x · W1 and relu(layer₁) · W2 on the vector unit, a block of rows
  per grid point (2048 rows with the operands cast to bfloat16; 8192 rows), and everything else — the degrees, the edge
  and self-loop weights, the weighted sums over the edges, the biases, relu and log_softmax — with host operations
  around the two regions; the degrees and weights are computed once and used by both layers. The reference computes
  the products with the host's dot_general and each layer's degrees and weights afresh.

  On the extended reals a change of float format is the identity and a product into a zero accumulator, the host's
  dot_general and the blockwise product are all the entry-wise sum of products (Proof/LibWholeProduct.lean; a row of a product
  depends on that row of the left operand only, and the blocks tile the rows: Proof/RowBlocks0.lean, RowBlocks1.lean).
  Every other operation is the same host operation in both programs, so both result buffers end at ONE function of the
  argument arrays, `Cert.Gcn.network` (Proof/Stages.lean): the kernel program's by Proof/KernelValue.lean over its run
  (Proof/KernelRun.lean) and its host stretches (Proof/KernelStretches.lean), the reference's by
  Proof/RefStretches.lean over its run (Proof/RefRun.lean). No law of arithmetic beyond this is used, and the
  precondition (finite inputs) is not needed.
-/
import proofs.«178939_j33758442947404_1_alg».proof.Defs
import proofs.«178939_j33758442947404_1_alg».proof.Proof.Gen.Kernel
import proofs.«178939_j33758442947404_1_alg».proof.Proof.Gen.Kernel.Skeleton
import proofs.«178939_j33758442947404_1_alg».proof.Proof.Gen.Kernel.Launch
import proofs.«178939_j33758442947404_1_alg».proof.Proof.Gen.Kernel.Points
import proofs.«178939_j33758442947404_1_alg».proof.Proof.Gen.Kernel.Frame
import proofs.«178939_j33758442947404_1_alg».proof.Proof.Gen.KernelIdeal
import proofs.«178939_j33758442947404_1_alg».proof.Proof.Gen.KernelIdeal.Skeleton
import proofs.«178939_j33758442947404_1_alg».proof.Proof.Gen.KernelIdeal.Launch
import proofs.«178939_j33758442947404_1_alg».proof.Proof.Gen.KernelIdeal.Points
import proofs.«178939_j33758442947404_1_alg».proof.Proof.Gen.KernelIdeal.Frame
import proofs.«178939_j33758442947404_1_alg».proof.Proof.Gen.ReferenceIdeal
import proofs.«178939_j33758442947404_1_alg».proof.Proof.Gen.Pre_finite_inputs
import proofs.«178939_j33758442947404_1_alg».proof.Proof.KernelValue
import proofs.«178939_j33758442947404_1_alg».proof.Proof.RefStretches
import proofs.«178939_j33758442947404_1_alg».proof.Proof.RefKept
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernel_ideal : Cert.frame_KernelIdeal := fun m ρ _ => Cert.KernelIdeal.Gen.frame m ρ

/-- The reference runs and keeps its arguments: no operation of its line writes one. -/
theorem frame_reference : Cert.frame_ReferenceIdeal := fun m ρ _ =>
  (θ_run Cert.ReferenceIdeal.defs _ _).mono (fun r h c =>
      ⟨(h c Cert.ReferenceIdeal.main_arg0).trans (Cert.ReferenceIdeal.Kept.arg0 _),
       (h c Cert.ReferenceIdeal.main_arg1).trans (Cert.ReferenceIdeal.Kept.arg1 _),
       (h c Cert.ReferenceIdeal.main_arg2).trans (Cert.ReferenceIdeal.Kept.arg2 _),
       (h c Cert.ReferenceIdeal.main_arg3).trans (Cert.ReferenceIdeal.Kept.arg3 _),
       (h c Cert.ReferenceIdeal.main_arg4).trans (Cert.ReferenceIdeal.Kept.arg4 _),
       (h c Cert.ReferenceIdeal.main_arg5).trans (Cert.ReferenceIdeal.Kept.arg5 _)⟩)
    (Cert.ReferenceIdeal.Line.run (F := Ideal) m ρ)

/-- From memories that agree on the arguments both programs end with the network's value of those arguments in their
    result buffers, and keep their arguments. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun r h c =>
      ⟨?_,
       (h c Cert.ReferenceIdeal.main_arg0).trans (Cert.ReferenceIdeal.Kept.arg0 _),
       (h c Cert.ReferenceIdeal.main_arg1).trans (Cert.ReferenceIdeal.Kept.arg1 _),
       (h c Cert.ReferenceIdeal.main_arg2).trans (Cert.ReferenceIdeal.Kept.arg2 _),
       (h c Cert.ReferenceIdeal.main_arg3).trans (Cert.ReferenceIdeal.Kept.arg3 _),
       (h c Cert.ReferenceIdeal.main_arg4).trans (Cert.ReferenceIdeal.Kept.arg4 _),
       (h c Cert.ReferenceIdeal.main_arg5).trans (Cert.ReferenceIdeal.Kept.arg5 _)⟩)
    (Cert.ReferenceIdeal.Line.run (F := Ideal) m' ρ')
  refine (h c Cert.ReferenceIdeal.main_v95).trans ((Cert.ReferenceIdeal.Stretches.line_value _).trans ?_)
  show Cert.Gcn.network (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) = _
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
